-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1x64 : Shape := ⟨3, ![100000, 1, 64]⟩
abbrev S1600000x128 : Shape := ⟨2, ![1600000, 128]⟩
abbrev S1600000 : Shape := ⟨1, ![1600000]⟩
abbrev S128x64 : Shape := ⟨2, ![128, 64]⟩
abbrev S64 : Shape := ⟨1, ![64]⟩
abbrev S_ : Shape := ⟨0, ![]⟩

class Facts : Prop where
  bcast_S_S100000x1x64 : S_.BroadcastsInDim S100000x1x64 (![] : Fin 0 → Fin S100000x1x64.rank)
  reducesTo_S100000x1x64_S_d0_1_2 : S100000x1x64.ReducesTo [0, 1, 2] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x1x64 .f32) (main_arg1 : FVec F S1600000x128 .f32) (main_arg2 : IVec S1600000 32) (main_arg3 : IVec S1600000 32) (main_arg4 : FVec F S128x64 .f32) (main_arg5 : FVec F S64 .f32) : IVec S_ 1 :=
  let main_v0 : FVec F S100000x1x64 .f32 := Host.absf main_arg0
  let main_cst : FVec F S_ .f32 := constant S_ .f32 0x7F800000#32
  let main_v1 : FVec F S100000x1x64 .f32 := broadcastInDim S100000x1x64 ![] bcast_S_S100000x1x64 main_cst
  let main_v2 : IVec S100000x1x64 1 := cmpf .olt main_v0 main_v1
  let main_c : IVec S_ 1 := constantI S_ 1 1#1
  let main_v3 : IVec S_ 1 := (fun x v => Host.reduce IntOp.andi x v reducesTo_S100000x1x64_S_d0_1_2 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x1x64 : Shape := ⟨3, ![100000, 1, 64]⟩
abbrev S1600000x128 : Shape := ⟨2, ![1600000, 128]⟩
abbrev S1600000 : Shape := ⟨1, ![1600000]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S1x64 : Shape := ⟨2, ![1, 64]⟩
abbrev S6400x128 : Shape := ⟨2, ![6400, 128]⟩
abbrev S6400x1 : Shape := ⟨2, ![6400, 1]⟩
abbrev S6400x64 : Shape := ⟨2, ![6400, 64]⟩
abbrev S100000x1 : Shape := ⟨2, ![100000, 1]⟩

abbrev nBuf : Space → Nat
  | .hbm => 59
  | .vmem => 10
  | .smem => 0
  | _ => 0

abbrev bufTy : (tb : Table) → Fin (tcTables nBuf tb) → BufTy
  | .hbm, ⟨0, _⟩ => ⟨S100000x1x64, .f32⟩
  | .hbm, ⟨1, _⟩ => ⟨S1600000x128, .f32⟩
  | .hbm, ⟨2, _⟩ => ⟨S1600000, .i32⟩
  | .hbm, ⟨3, _⟩ => ⟨S1600000, .i32⟩
  | .hbm, ⟨4, _⟩ => ⟨S128x64, .f32⟩
  | .hbm, ⟨5, _⟩ => ⟨S64, .f32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000, .f32⟩
  | .hbm, ⟨27, _⟩ => ⟨S1600000x1, .f32⟩
  | .hbm, ⟨28, _⟩ => ⟨S100000x64, .f32⟩
  | .hbm, ⟨29, _⟩ => ⟨S100000x64, .bf16⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .bf16⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .bf16⟩
  | .hbm, ⟨48, _⟩ => ⟨S1600000x128, .bf16⟩
  | .hbm, ⟨49, _⟩ => ⟨S1x64, .f32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S100000x1x64, .f32⟩
  | .local _ .vmem, ⟨0, _⟩ => ⟨S6400x128, .bf16⟩
  | .local _ .vmem, ⟨1, _⟩ => ⟨S6400x128, .bf16⟩
  | .local _ .vmem, ⟨2, _⟩ => ⟨S6400x128, .f32⟩
  | .local _ .vmem, ⟨3, _⟩ => ⟨S6400x128, .f32⟩
  | .local _ .vmem, ⟨4, _⟩ => ⟨S6400x1, .f32⟩
  | .local _ .vmem, ⟨5, _⟩ => ⟨S6400x1, .f32⟩
  | .local _ .vmem, ⟨6, _⟩ => ⟨S128x64, .f32⟩
  | .local _ .vmem, ⟨7, _⟩ => ⟨S1x64, .f32⟩
  | .local _ .vmem, ⟨8, _⟩ => ⟨S6400x64, .f32⟩
  | .local _ .vmem, ⟨9, _⟩ => ⟨S6400x64, .f32⟩
  | _, _ => ⟨S100000x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S1600000_S1600000x1 : S1600000.ShapeCasts S1600000x1
  shapeCasts_S100000x1x64_S100000x64 : S100000x1x64.ShapeCasts S100000x64
  bitsLt_bf16_f32 : FTy.bits .bf16 < FTy.bits .f32
  concatenates_S1600000x64_S1600000x64_S1600000x128_d1 : Shape.Concatenates [S1600000x64, S1600000x64] S1600000x128 1
  shapeCasts_S64_S1x64 : S64.ShapeCasts S1x64
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x64 : S6400x1.Broadcasts S6400x64
  inb_S6400x64_S6400x64_0_0 : ∀ a, (![0, 0] : Fin 2 → Nat) a + S6400x64.size a ≤ S6400x64.size a
  h_S6400x64 : 0 < S6400x64.numel
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S100000x64_S100000x1x64 : S100000x64.ShapeCasts S100000x1x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  dot_S6400x128_S128x64_S6400x64_1_0_0_1_n_n_wf : DotDims.WF S6400x128 S128x64 S6400x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S1600000x128.size a
  hwx0_0 : ∀ i : grid0.Coords, EltTy.bits .bf16 = 32 ∨ (Rect.block (s := S1600000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S1600000x128.size a
  hwx0_1 : ∀ i : grid0.Coords, EltTy.bits .f32 = 32 ∨ (Rect.block (s := S1600000x128) S6400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x1.size a ≤ S1600000x1.size a
  hwx0_2 : ∀ i : grid0.Coords, EltTy.bits .f32 = 32 ∨ (Rect.block (s := S1600000x1) S6400x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x64.size a ≤ S1600000x64.size a
  hwx0_5 : ∀ i : grid0.Coords, EltTy.bits .f32 = 32 ∨ (Rect.block (s := S1600000x64) S6400x64.size (cc0_transform_5 i) (hinb0_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v32) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S6400x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S6400x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x1x64 : Shape := ⟨3, ![100000, 1, 64]⟩
abbrev S1600000x128 : Shape := ⟨2, ![1600000, 128]⟩
abbrev S1600000 : Shape := ⟨1, ![1600000]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1x1 : Shape := ⟨3, ![100000, 1, 1]⟩
abbrev S1600000x1x64 : Shape := ⟨3, ![1600000, 1, 64]⟩
abbrev S1600000x1x128 : Shape := ⟨3, ![1600000, 1, 128]⟩
abbrev S1x1x64 : Shape := ⟨3, ![1, 1, 64]⟩
abbrev S1600000x1x1 : Shape := ⟨3, ![1600000, 1, 1]⟩

abbrev nBuf : Space → Nat
  | .hbm => 69
  | .vmem => 0
  | .smem => 0
  | _ => 0

abbrev bufTy : (tb : Table) → Fin (tcTables nBuf tb) → BufTy
  | .hbm, ⟨0, _⟩ => ⟨S100000x1x64, .f32⟩
  | .hbm, ⟨1, _⟩ => ⟨S1600000x128, .f32⟩
  | .hbm, ⟨2, _⟩ => ⟨S1600000, .i32⟩
  | .hbm, ⟨3, _⟩ => ⟨S1600000, .i32⟩
  | .hbm, ⟨4, _⟩ => ⟨S128x64, .f32⟩
  | .hbm, ⟨5, _⟩ => ⟨S64, .f32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1x1, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x1x64, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x1x64, .f32⟩
  | .hbm, ⟨37, _⟩ => ⟨S1600000x1x128, .f32⟩
  | .hbm, ⟨38, _⟩ => ⟨S1600000x1x128, .f32⟩
  | .hbm, ⟨39, _⟩ => ⟨S1600000x1x128, .f32⟩
  | .hbm, ⟨40, _⟩ => ⟨S1600000x1x64, .f32⟩
  | .hbm, ⟨41, _⟩ => ⟨S1x1x64, .f32⟩
  | .hbm, ⟨42, _⟩ => ⟨S1600000x1x64, .f32⟩
  | .hbm, ⟨43, _⟩ => ⟨S1600000x1x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x1x1, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x1x1, .f32⟩
  | .hbm, ⟨62, _⟩ => ⟨S1600000x1x1, .f32⟩
  | .hbm, ⟨63, _⟩ => ⟨S1600000x1x64, .f32⟩
  | .hbm, ⟨64, _⟩ => ⟨S1600000x1x64, .f32⟩
  | .hbm, ⟨65, _⟩ => ⟨S_, .f32⟩
  | .hbm, ⟨66, _⟩ => ⟨S100000x1x64, .f32⟩
  | .hbm, ⟨67, _⟩ => ⟨S1600000x1, .i32⟩
  | .hbm, ⟨68, _⟩ => ⟨S100000x1x64, .f32⟩
  | _, _ => ⟨S100000x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_c_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1x1_0 : S100000.BroadcastsInDim S100000x1x1 (![0] : Fin 1 → Fin S100000x1x1.rank)
  concatenates_S1600000x1x64_S1600000x1x64_S1600000x1x128_d2 : Shape.Concatenates [S1600000x1x64, S1600000x1x64] S1600000x1x128 2
  bcast_S1600000x128_S1600000x1x128_0_2 : S1600000x128.BroadcastsInDim S1600000x1x128 (![0, 2] : Fin 2 → Fin S1600000x1x128.rank)
  bcast_S64_S1x1x64_2 : S64.BroadcastsInDim S1x1x64 (![2] : Fin 1 → Fin S1x1x64.rank)
  bcast_S1x1x64_S1600000x1x64_0_1_2 : S1x1x64.BroadcastsInDim S1600000x1x64 (![0, 1, 2] : Fin 3 → Fin S1600000x1x64.rank)
  bcast_S1600000x1x1_S1600000x1x64_0_1_2 : S1600000x1x1.BroadcastsInDim S1600000x1x64 (![0, 1, 2] : Fin 3 → Fin S1600000x1x64.rank)
  bcast_S_S100000x1x64 : S_.BroadcastsInDim S100000x1x64 (![] : Fin 0 → Fin S100000x1x64.rank)
  scatter_S100000_S1600000x1_S1600000_n_0_0_1_wf : ScatterDims.WF S100000 S1600000x1 S1600000 [] [0] [0] 1
  gather_S100000x1x64_S1600000x1_S1600000x1x64_12_0_n_n_0_1_1164_wf : GatherDims.WF S100000x1x64 S1600000x1 S1600000x1x64 [1, 2] [0] [] [0] [] 1 ![1, 1, 64]
  dot_S1600000x1x128_S128x64_S1600000x1x64_2_0_01_1_n_n_wf : DotDims.WF S1600000x1x128 S128x64 S1600000x1x64 [2] [0] [0, 1] [1] [] []
  gather_S100000x1x1_S1600000x1_S1600000x1x1_12_0_n_n_0_1_111_wf : GatherDims.WF S100000x1x1 S1600000x1 S1600000x1x1 [1, 2] [0] [] [0] [] 1 ![1, 1, 1]
  scatter_S100000x1x64_S1600000x1_S1600000x1x64_12_0_0_1_wf : ScatterDims.WF S100000x1x64 S1600000x1 S1600000x1x64 [1, 2] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x1x64_S1600000x1_S1600000x1x64_12_0_n_n_0_1_1164 : GatherDims S100000x1x64 S1600000x1 S1600000x1x64 where
  offsetDims := [1, 2]
  collapsedSliceDims := [0]
  operandBatchingDims := []
  startIndicesBatchingDims := []
  startIndexMap := [0]
  indexVectorDim := 1
  sliceSizes := ![1, 1, 64]
  wf := gather_S100000x1x64_S1600000x1_S1600000x1x64_12_0_n_n_0_1_1164_wf
def dot_S1600000x1x128_S128x64_S1600000x1x64_2_0_01_1_n_n : DotDims S1600000x1x128 S128x64 S1600000x1x64 where
  lhsContracting := [2]
  rhsContracting := [0]
  lhsNonContracting := [0, 1]
  rhsNonContracting := [1]
  lhsBatch := []
  rhsBatch := []
  wf := dot_S1600000x1x128_S128x64_S1600000x1x64_2_0_01_1_n_n_wf
def gather_S100000x1x1_S1600000x1_S1600000x1x1_12_0_n_n_0_1_111 : GatherDims S100000x1x1 S1600000x1 S1600000x1x1 where
  offsetDims := [1, 2]
  collapsedSliceDims := [0]
  operandBatchingDims := []
  startIndicesBatchingDims := []
  startIndexMap := [0]
  indexVectorDim := 1
  sliceSizes := ![1, 1, 1]
  wf := gather_S100000x1x1_S1600000x1_S1600000x1x1_12_0_n_n_0_1_111_wf
def scatter_S100000x1x64_S1600000x1_S1600000x1x64_12_0_0_1 : ScatterDims S100000x1x64 S1600000x1 S1600000x1x64 where
  updateWindowDims := [1, 2]
  insertedWindowDims := [0]
  scatterDimsToOperandDims := [0]
  indexVectorDim := 1
  wf := scatter_S100000x1x64_S1600000x1_S1600000x1x64_12_0_0_1_wf

class Facts : Prop extends Facts₀ where

variable [Facts]
-- ==== Proof.KMessage.lean ====
/-
  One edge's message, read at an index. The kernel body, on a block of 6400 edges, forms for edge `p` and output
  feature `q`
      ((∑ k < 128, (x0[p, k] + x1[p, k]) · w[k, q]) + b[0, q]) · s[p, 0]
  where `x0` is the block of gathered node features (destination ‖ source), `x1` the block of edge features, `w` the
  weight matrix, `b` the bias row and `s` the column of source-side normalisation factors. At the ideal values the
  changes of float format are the identity and the matrix product into a zero accumulator is the plain sum over the
  contracted axis, so nothing else is left of the body's arithmetic.
-/
import proofs.«148712_j56118042689984_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Message

open Idealize.ShloMosaic Idealize.ShloMosaic.ValueIdx Cert.KernelIdeal Cert.KernelIdeal.Gen

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's row coordinate at output index `i` is `i`'s row. -/
theorem lhs_row (i : S6400x64.Idx) (q : dot_S6400x128_S128x64_S6400x64_1_0_0_1_n_n.contr.Idx) :
    (dot_S6400x128_S128x64_S6400x64_1_0_0_1_n_n.lhsIdx i q 0).val = (i 0).val := by
  unfold DotDims.lhsIdx
  rw [dif_neg (show ¬(0 : Fin S6400x128.rank) ∈ dot_S6400x128_S128x64_S6400x64_1_0_0_1_n_n.lhsBatch by decide),
    dif_pos (show (0 : Fin S6400x128.rank) ∈ dot_S6400x128_S128x64_S6400x64_1_0_0_1_n_n.lhsNonContracting by decide)]
  rfl

/-- The right operand's column coordinate at output index `i` is `i`'s column. -/
theorem rhs_col (i : S6400x64.Idx) (q : dot_S6400x128_S128x64_S6400x64_1_0_0_1_n_n.contr.Idx) :
    (dot_S6400x128_S128x64_S6400x64_1_0_0_1_n_n.rhsIdx i q 1).val = (i 1).val := by
  unfold DotDims.rhsIdx
  rw [dif_neg (show ¬(1 : Fin S128x64.rank) ∈ dot_S6400x128_S128x64_S6400x64_1_0_0_1_n_n.rhsBatch by decide),
    dif_pos (show (1 : Fin S128x64.rank) ∈ dot_S6400x128_S128x64_S6400x64_1_0_0_1_n_n.rhsNonContracting by decide)]
  rfl

/-- The block's matrix product into a zero accumulator, at `(p, q)`: the sum over the 128 contracted columns. -/
theorem matmul_zero_apply (l : FVec Ideal S6400x128 .bf16) (r : FVec Ideal S128x64 .bf16) (p : Fin 6400) (q : Fin 64) :
    matmul dot_S6400x128_S128x64_S6400x64_1_0_0_1_n_n none l r (constant S6400x64 .f32 0x00000000#32) (ix2 p q)
      = ∑ k : Fin 128, l (ix2 p k) * r (ix2 k q) := by
  simp only [matmul]
  rw [Ideal.matmul_constant_zero_apply,
    ← Equiv.sum_comp (contrEquiv1 dot_S6400x128_S128x64_S6400x64_1_0_0_1_n_n 128 rfl rfl).symm]
  refine Finset.sum_congr rfl fun k _ => ?_
  have hk := contrEquiv1_symm_val dot_S6400x128_S128x64_S6400x64_1_0_0_1_n_n 128 rfl rfl k
  have el : dot_S6400x128_S128x64_S6400x64_1_0_0_1_n_n.lhsIdx (ix2 p q)
      ((contrEquiv1 dot_S6400x128_S128x64_S6400x64_1_0_0_1_n_n 128 rfl rfl).symm k) = ix2 p k :=
    funext fun a => Fin.ext (by
      match a with
      | ⟨0, _⟩ => exact lhs_row _ _
      | ⟨1, _⟩ => exact (dot_S6400x128_S128x64_S6400x64_1_0_0_1_n_n.lhsIdx_val_of_single rfl _ _).trans hk)
  have er : dot_S6400x128_S128x64_S6400x64_1_0_0_1_n_n.rhsIdx (ix2 p q)
      ((contrEquiv1 dot_S6400x128_S128x64_S6400x64_1_0_0_1_n_n 128 rfl rfl).symm k) = ix2 k q :=
    funext fun a => Fin.ext (by
      match a with
      | ⟨0, _⟩ => exact (dot_S6400x128_S128x64_S6400x64_1_0_0_1_n_n.rhsIdx_val_of_single rfl _ _).trans hk
      | ⟨1, _⟩ => exact rhs_col _ _)
  rw [el, er]

/-- THE MESSAGE AT AN INDEX: the body's one stored value at edge `p` of the block and feature `q`. -/
theorem message_apply (x0 : Vec Ideal S6400x128 .bf16) (x1 : Vec Ideal S6400x128 .f32) (w : Vec Ideal S128x64 .f32)
    (b : Vec Ideal S1x64 .f32) (s : Vec Ideal S6400x1 .f32) (p : Fin 6400) (q : Fin 64) :
    k0_pay1 (F := Ideal) x0 x1 w b s (ix2 p q)
      = ((∑ k : Fin 128, (x0 (ix2 p k) + x1 (ix2 p k)) * w (ix2 k q)) + b (ix2 (0 : Fin 1) q)) * s (ix2 p (0 : Fin 1)) := by
  unfold k0_pay1
  rw [mulf_apply, addf_apply, matmul_zero_apply, broadcastTo_1b_ab_apply, broadcastTo_a1_ab_apply]
  simp only [shapeCast_self]
  rfl

/-- The message of edge `e` at feature `d` from the WHOLE arrays: gathered node features `A0`, edge features `A1`,
    the column of source-side factors `A2`, the weights `A3` and the bias row `A4`. -/
def msg (A0 A1 : S1600000x128.Idx → EReal) (A2 : S1600000x1.Idx → EReal) (A3 : S128x64.Idx → EReal)
    (A4 : S1x64.Idx → EReal) (e : Fin 1600000) (d : Fin 64) : EReal :=
  ((∑ k : Fin 128, (A0 (ix2 e k) + A1 (ix2 e k)) * A3 (ix2 k d)) + A4 (ix2 (0 : Fin 1) d)) * A2 (ix2 e (0 : Fin 1))

/-- All messages as one array over (edge, feature). -/
def Msg (A0 A1 : S1600000x128.Idx → EReal) (A2 : S1600000x1.Idx → EReal) (A3 : S128x64.Idx → EReal)
    (A4 : S1x64.Idx → EReal) : S1600000x64.Idx → EReal :=
  fun i => msg A0 A1 A2 A3 A4 ⟨(i 0).val, idx2_lt0 i⟩ ⟨(i 1).val, idx2_lt1 i⟩

theorem Msg_apply (A0 A1 : S1600000x128.Idx → EReal) (A2 : S1600000x1.Idx → EReal) (A3 : S128x64.Idx → EReal)
    (A4 : S1x64.Idx → EReal) (e : Fin 1600000) (d : Fin 64) : Msg A0 A1 A2 A3 A4 (ix2 e d) = msg A0 A1 A2 A3 A4 e d := rfl

end Cert.KernelIdeal.Message

end
-- ==== Proof.KArray.lean ====
/-
  From blocks to the array. The grid has 250 points; point `t` stages rows `6400·t … 6400·t + 6399` of the gathered
  features, of the edge features and of the source-factor column, the whole weight matrix and the whole bias row, and
  writes back rows `6400·t … 6400·t + 6399` of the message array. So row `p` of point `t`'s blocks is edge
  `6400·t + p` of every edge-indexed array, what point `t` writes back is block `t` of the one whole-array
  function `Msg`, and since every edge `r` lies in block `r / 6400` the message array after the region is `Msg`
  of the arrays as the region finds them.
-/
import proofs.«148712_j56118042689984_2_alg».proof.Proof.KMessage
import proofs.«148712_j56118042689984_2_alg».proof.Proof.Gen.KernelIdeal.Frame
import Idealize.ShloMosaic.Lib.Pipeline.Value

set_option maxRecDepth 16384

noncomputable section

open scoped BigOperators

namespace Cert.KernelIdeal.Messages

open Idealize.ShloMosaic Idealize.ShloMosaic.TcCoe Idealize.ShloMosaic.ValueIdx Idealize.SL.Sem
open Cert.KernelIdeal Cert.KernelIdeal.Gen Cert.KernelIdeal.Message
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The printed index maps, decided once over the grid: the three edge-indexed inputs and the output move with the
    point along the rows and stay at column block 0; the weights and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 250 := lt_of_lt_of_eq t.isLt N_0

/-- The edge that row `p` of point `t`'s blocks is. -/
def edge (t : Fin cfg0.N) (p : Fin 6400) : Fin 1600000 :=
  ⟨t.val * 6400 + p.val, by have := point_lt t; have := p.isLt; omega⟩

/-! ### Where a block's entry sits in its array: block index × block size + the coordinate inside the block -/

/-- Row `p`, column `q` of point `t`'s output block is entry `(6400·t + p, q)` of the message array. -/
theorem emb_out (t : Fin cfg0.N) (p : Fin 6400) (q : Fin 64) :
    ((cfg0.win 5).blk t).view.emb (ix2 p q) = ix2 (edge t p) q := by
  obtain ⟨e00, e01, e10, e11, e20, e21, e30, e31, e40, e41, e50, e51⟩ := idx_facts t
  funext a; apply Fin.ext
  match a with
  | ⟨0, _⟩ => show win0_5.index t (0 : Fin 2) * 6400 + 1 * p.val = t.val * 6400 + p.val; omega
  | ⟨1, _⟩ => show win0_5.index t (1 : Fin 2) * 64 + 1 * q.val = q.val; omega

theorem emb_feats (t : Fin cfg0.N) (p : Fin 6400) (k : Fin 128) :
    ((cfg0.win 0).blk t).view.emb (ix2 p k) = ix2 (edge t p) k := by
  obtain ⟨e00, e01, e10, e11, e20, e21, e30, e31, e40, e41, e50, e51⟩ := idx_facts t
  funext a; apply Fin.ext
  match a with
  | ⟨0, _⟩ => show win0_0.index t (0 : Fin 2) * 6400 + 1 * p.val = t.val * 6400 + p.val; omega
  | ⟨1, _⟩ => show win0_0.index t (1 : Fin 2) * 128 + 1 * k.val = k.val; omega

theorem emb_efeat (t : Fin cfg0.N) (p : Fin 6400) (k : Fin 128) :
    ((cfg0.win 1).blk t).view.emb (ix2 p k) = ix2 (edge t p) k := by
  obtain ⟨e00, e01, e10, e11, e20, e21, e30, e31, e40, e41, e50, e51⟩ := idx_facts t
  funext a; apply Fin.ext
  match a with
  | ⟨0, _⟩ => show win0_1.index t (0 : Fin 2) * 6400 + 1 * p.val = t.val * 6400 + p.val; omega
  | ⟨1, _⟩ => show win0_1.index t (1 : Fin 2) * 128 + 1 * k.val = k.val; omega

theorem emb_factor (t : Fin cfg0.N) (p : Fin 6400) :
    ((cfg0.win 2).blk t).view.emb (ix2 p (0 : Fin 1)) = ix2 (edge t p) (0 : Fin 1) := by
  obtain ⟨e00, e01, e10, e11, e20, e21, e30, e31, e40, e41, e50, e51⟩ := idx_facts t
  funext a; apply Fin.ext
  match a with
  | ⟨0, _⟩ => show win0_2.index t (0 : Fin 2) * 6400 + 1 * p.val = t.val * 6400 + p.val; omega
  | ⟨1, _⟩ => show win0_2.index t (1 : Fin 2) * 1 + 1 * 0 = 0; omega

theorem emb_weight (t : Fin cfg0.N) (k : Fin 128) (q : Fin 64) :
    ((cfg0.win 3).blk t).view.emb (ix2 k q) = ix2 k q := by
  obtain ⟨e00, e01, e10, e11, e20, e21, e30, e31, e40, e41, e50, e51⟩ := idx_facts t
  funext a; apply Fin.ext
  match a with
  | ⟨0, _⟩ => show win0_3.index t (0 : Fin 2) * 128 + 1 * k.val = k.val; omega
  | ⟨1, _⟩ => show win0_3.index t (1 : Fin 2) * 64 + 1 * q.val = q.val; omega

theorem emb_bias (t : Fin cfg0.N) (q : Fin 64) :
    ((cfg0.win 4).blk t).view.emb (ix2 (0 : Fin 1) q) = ix2 (0 : Fin 1) q := by
  obtain ⟨e00, e01, e10, e11, e20, e21, e30, e31, e40, e41, e50, e51⟩ := idx_facts t
  funext a; apply Fin.ext
  match a with
  | ⟨0, _⟩ => show win0_4.index t (0 : Fin 2) * 1 + 1 * 0 = 0; omega
  | ⟨1, _⟩ => show win0_4.index t (1 : Fin 2) * 64 + 1 * q.val = q.val; omega

/-! ### Each input block read where the output's rows say, for ANY contents of the array -/

/-- Row `p` of the gathered-features block at point `t` is row `6400·t + p` of the array. -/
theorem read_feats (A : S1600000x128.Idx → EReal) (t : Fin cfg0.N) (p : Fin 6400) (k : Fin 128) :
    View.read (Elt Ideal) ((View.whole main_v32).slice ((win0 0).rect t)) A (ix2 p k) = A (ix2 (edge t p) k) := by
  show A (((cfg0.win 0).blk t).view.emb (ix2 p k)) = _
  rw [emb_feats]

/-- Row `p` of the edge-features block at point `t` is row `6400·t + p` of the array. -/
theorem read_efeat (A : S1600000x128.Idx → EReal) (t : Fin cfg0.N) (p : Fin 6400) (k : Fin 128) :
    View.read (Elt Ideal) ((View.whole main_arg1).slice ((win0 1).rect t)) A (ix2 p k) = A (ix2 (edge t p) k) := by
  show A (((cfg0.win 1).blk t).view.emb (ix2 p k)) = _
  rw [emb_efeat]

/-- Row `p` of the source-factor block at point `t` is row `6400·t + p` of the column. -/
theorem read_factor (A : S1600000x1.Idx → EReal) (t : Fin cfg0.N) (p : Fin 6400) :
    View.read (Elt Ideal) ((View.whole main_v15).slice ((win0 2).rect t)) A (ix2 p (0 : Fin 1)) = A (ix2 (edge t p) (0 : Fin 1)) := by
  show A (((cfg0.win 2).blk t).view.emb (ix2 p (0 : Fin 1))) = _
  rw [emb_factor]

/-- The weights' block at every point is the whole weight matrix. -/
theorem read_weight (A : S128x64.Idx → EReal) (t : Fin cfg0.N) (k : Fin 128) (q : Fin 64) :
    View.read (Elt Ideal) ((View.whole main_arg4).slice ((win0 3).rect t)) A (ix2 k q) = A (ix2 k q) := by
  show A (((cfg0.win 3).blk t).view.emb (ix2 k q)) = _
  rw [emb_weight]

/-- The bias block at every point is the whole bias row. -/
theorem read_bias (A : S1x64.Idx → EReal) (t : Fin cfg0.N) (q : Fin 64) :
    View.read (Elt Ideal) ((View.whole main_v33).slice ((win0 4).rect t)) A (ix2 (0 : Fin 1) q) = A (ix2 (0 : Fin 1) q) := by
  show A (((cfg0.win 4).blk t).view.emb (ix2 (0 : Fin 1) q)) = _
  rw [emb_bias]

set_option backward.isDefEq.respectTransparency.types false in
/-- For ANY contents of the five input arrays: the body's value on point `t`'s blocks of them, cut to the output
    block, is block `t` of `Msg` of the arrays. -/
theorem flushed_gen (A0 A1 : S1600000x128.Idx → EReal) (A2 : S1600000x1.Idx → EReal) (A3 : S128x64.Idx → EReal)
    (A4 : S1x64.Idx → EReal) (t : Fin cfg0.N) :
    (cfg0.win 5).cut (grid0.coords t)
        (out0_5 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4))
      = ((cfg0.win 5).blk t).view.read (Elt Ideal) (Msg A0 A1 A2 A3 A4) := by
  unfold out0_5
  rw [View.canon_unit_zero hz]
  simp only [View.ld_unit_zero (S := S6400x128) hz, View.ld_unit_zero (S := S128x64) hz,
    View.ld_unit_zero (S := S1x64) hz, View.ld_unit_zero (S := S6400x1) hz]
  funext j
  obtain ⟨p, q, rfl⟩ : ∃ (p : Fin 6400) (q : Fin 64), j = ix2 p q := ⟨j 0, j 1, eq_ix2 j⟩
  show k0_pay1 (F := Ideal) (((cfg0.win 0).blk t).view.read (Elt Ideal) A0) (((cfg0.win 1).blk t).view.read (Elt Ideal) A1)
        (((cfg0.win 3).blk t).view.read (Elt Ideal) A3) (((cfg0.win 4).blk t).view.read (Elt Ideal) A4)
        (((cfg0.win 2).blk t).view.read (Elt Ideal) A2) (ix2 p q)
      = Msg A0 A1 A2 A3 A4 (((cfg0.win 5).blk t).view.emb (ix2 p q))
  rw [emb_out t p q, Msg_apply]
  refine (message_apply _ _ _ _ _ p q).trans ?_
  unfold msg
  simp only [read_feats, read_efeat, read_factor, read_weight, read_bias]

/-- WHAT POINT `t` WRITES BACK is block `t` of `Msg` of the five input arrays as the region finds them. -/
theorem flushed_eq (c : Dev nD) (t : Fin cfg0.N) :
    (dats m 0 c).flushed 5 t = ((cfg0.win 5).blk t).view.read (Elt Ideal)
      (Msg (V m c (Pipeline.arrRef spec0 (0 : Fin cfg0.W))) (V m c (Pipeline.arrRef spec0 (1 : Fin cfg0.W)))
        (V m c (Pipeline.arrRef spec0 (2 : Fin cfg0.W))) (V m c (Pipeline.arrRef spec0 (3 : Fin cfg0.W)))
        (V m c (Pipeline.arrRef spec0 (4 : Fin cfg0.W)))) := by
  show (cfg0.win 5).cut (grid0.coords t) ((dats m 0 c).after 5 t) = _
  rw [after0_5]
  exact flushed_gen _ _ _ _ _ t

/-- An index of the message array is in point `t`'s block iff each coordinate is in the block's range on its axis. -/
theorem mem_blk (t : Fin cfg0.N) (i : S1600000x64.Idx) :
    i ∈ ((cfg0.win 5).blk t).view.set ↔ ∀ a : Fin 2, win0_5.index t a * S6400x64.size a ≤ (i a).val
      ∧ (i a).val < win0_5.index t a * S6400x64.size a + S6400x64.size a := by
  show i ∈ ((View.whole main_v34).slice (win0_5.rect t)).set ↔ _
  rw [View.set_slice_whole, Rect.mem_set_unit]
  exact Iff.rfl

/-- Every edge row lies in some point's block: row `r` in block `r / 6400`. -/
theorem cover (i : S1600000x64.Idx) :
    ∃ t : Fin cfg0.N, (cfg0.win 5).flush t = true ∧ i ∈ ((cfg0.win 5).blk t).view.set := by
  have hi0 : (i 0).val < 1600000 := (i 0).isLt
  have hi1 : (i 1).val < 64 := (i 1).isLt
  have hN : (i 0).val / 6400 < cfg0.N := by
    have : (i 0).val / 6400 < 250 := by omega
    exact lt_of_lt_of_eq this N_0.symm
  obtain ⟨_, _, _, _, _, _, _, _, _, _, e50, e51⟩ := idx_facts ⟨(i 0).val / 6400, hN⟩
  refine ⟨⟨(i 0).val / 6400, hN⟩, flush0_5 _, ?_⟩
  rw [mem_blk]
  intro a
  match a with
  | ⟨0, _⟩ =>
    show win0_5.index ⟨(i 0).val / 6400, hN⟩ (0 : Fin 2) * 6400 ≤ (i 0).val
      ∧ (i 0).val < win0_5.index ⟨(i 0).val / 6400, hN⟩ (0 : Fin 2) * 6400 + 6400
    rw [e50]
    show (i 0).val / 6400 * 6400 ≤ (i 0).val ∧ (i 0).val < (i 0).val / 6400 * 6400 + 6400
    omega
  | ⟨1, _⟩ =>
    show win0_5.index ⟨(i 0).val / 6400, hN⟩ (1 : Fin 2) * 64 ≤ (i 1).val
      ∧ (i 1).val < win0_5.index ⟨(i 0).val / 6400, hN⟩ (1 : Fin 2) * 64 + 64
    omega

/-- THE MESSAGE ARRAY after the region: `Msg` of the arrays as the region finds them. -/
theorem final (c : Dev nD) : (dats m 0 c).arrAt 5 cfg0.N
    = Msg (V m c (Pipeline.arrRef spec0 (0 : Fin cfg0.W))) (V m c (Pipeline.arrRef spec0 (1 : Fin cfg0.W)))
        (V m c (Pipeline.arrRef spec0 (2 : Fin cfg0.W))) (V m c (Pipeline.arrRef spec0 (3 : Fin cfg0.W)))
        (V m c (Pipeline.arrRef spec0 (4 : Fin cfg0.W))) :=
  (dats m 0 c).arrAt_eq_of_cover 5 _ (fun t _ => flushed_eq m c t) (cover)

end Cert.KernelIdeal.Messages

end
-- ==== Proof.KHostTerms.lean ====
/-
  What the kernel's program computes on the host before the region, as functions of the argument arrays:
  the wrapped node words, the normalisation factor of every node (one over the square root of its in-degree, the
  degree clamped at 1), the gathered features of every edge (destination ‖ source, 128 columns), the column of
  source-side factors, and the bias as a row. They are the operations the program applies, named.
-/
import proofs.«148712_j56118042689984_2_alg».proof.Proof.Gen.KernelIdeal
import Idealize.ShloMosaic.PureOps.Ideal

noncomputable section

namespace Cert.KernelIdeal.HostTerms

open Idealize.ShloMosaic Cert.KernelIdeal Cert.KernelIdeal.Gen

/-- Every node word wrapped: a negative word has the number of nodes added. -/
def wrapped (x : S1600000.Idx → BitVec 32) : S1600000.Idx → BitVec 32 :=
  select (cmpi CmpIPredicate.slt x (broadcastInDim S1600000 ![] bcast_S_S1600000 (constantI S_ 32 0#32)))
    (addi x (broadcastInDim S1600000 ![] bcast_S_S1600000 (constantI S_ 32 100000#32))) x

/-- The normalisation factor of every node: its in-degree (the number of edges whose destination word is the node),
    clamped below at 1, to the power -1/2. -/
def norm (x3 : S1600000.Idx → BitVec 32) : S100000.Idx → EReal :=
  Host.powf (F := Ideal)
    (maximumf
      (Host.scatterAdd scatter_S100000_S1600000x1_S1600000_n_0_0_1
        (broadcastInDim S100000 ![] bcast_S_S100000 (constant (F := Ideal) S_ FTy.f32 0#32))
        (broadcastInDim S1600000x1 ![0] bcast_S1600000_S1600000x1_0 x3)
        (broadcastInDim S1600000 ![] bcast_S_S1600000 (constant (F := Ideal) S_ FTy.f32 1065353216#32)))
      (broadcastInDim S100000 ![] bcast_S_S100000 (constant (F := Ideal) S_ FTy.f32 1065353216#32)))
    (broadcastInDim S100000 ![] bcast_S_S100000 (constant (F := Ideal) S_ FTy.f32 3204448256#32))

/-- The node features as a 100000 × 64 table (the unit head axis dropped, the format narrowed: the identity here). -/
def table (x0 : S100000x1x64.Idx → EReal) : FVec Ideal S100000x64 FTy.bf16 :=
  truncf FTy.bf16 (shapeCast S100000x64 x0 shapeCasts_S100000x1x64_S100000x64 : FVec Ideal S100000x64 FTy.f32) bitsLt_bf16_f32

/-- The gathered features of every edge: the destination node's row, then the source node's row. -/
def feats (x0 : S100000x1x64.Idx → EReal) (x2 x3 : S1600000.Idx → BitVec 32) : S1600000x128.Idx → EReal :=
  concatenate S1600000x128 1
    [⟨S1600000x64, Host.gather gather_S100000x64_S1600000x1_S1600000x64_1_0_n_n_0_1_164 (table x0)
        (broadcastInDim S1600000x1 ![0] bcast_S1600000_S1600000x1_0 (wrapped x3))⟩,
      ⟨S1600000x64, Host.gather gather_S100000x64_S1600000x1_S1600000x64_1_0_n_n_0_1_164 (table x0)
        (broadcastInDim S1600000x1 ![0] bcast_S1600000_S1600000x1_0 (wrapped x2))⟩]
    concatenates_S1600000x64_S1600000x64_S1600000x128_d1

/-- The source node's factor of every edge, as a column. -/
def factor (x2 x3 : S1600000.Idx → BitVec 32) : S1600000x1.Idx → EReal :=
  shapeCast S1600000x1
    (Host.gather gather_S100000_S1600000x1_S1600000_n_0_n_n_0_1_1 (norm x3)
      (broadcastInDim S1600000x1 ![0] bcast_S1600000_S1600000x1_0 (wrapped x2)))
    shapeCasts_S1600000_S1600000x1

/-- The bias as a row. -/
def bias (x5 : S64.Idx → EReal) : S1x64.Idx → EReal := shapeCast S1x64 x5 shapeCasts_S64_S1x64

/-- What the program computes after the region, from the factors `nrm`, the destination words `x3` and the message
    array `M`: per destination node the sum of the messages of the edges that land on it, times the node's factor. -/
def out (nrm : S100000.Idx → EReal) (x3 : S1600000.Idx → BitVec 32) (M : S1600000x64.Idx → EReal) :
    S100000x1x64.Idx → EReal :=
  shapeCast S100000x1x64
    (mulf (F := Ideal)
      (broadcastInDim S100000x64 ![0, 1] bcast_S100000x1_S100000x64_0_1
        (broadcastInDim S100000x1 ![0] bcast_S100000_S100000x1_0 nrm))
      (Host.scatterAdd scatter_S100000x64_S1600000x1_S1600000x64_1_0_0_1
        (broadcastInDim S100000x64 ![] bcast_S_S100000x64 (constant (F := Ideal) S_ FTy.f32 0#32))
        (broadcastInDim S1600000x1 ![0] bcast_S1600000_S1600000x1_0 x3) M))
    shapeCasts_S100000x64_S100000x1x64

end Cert.KernelIdeal.HostTerms

end
-- ==== Proof.KHostV.lean ====
/-
  The arrays as the region finds them. Before the region the program has computed, from the argument arrays, the
  gathered features of every edge, the column of source-side factors, the bias row and the table of node factors:
  each is the named host term of the argument arrays (the host operations before the region, applied in order).
-/
import proofs.«148712_j56118042689984_2_alg».proof.Proof.KHostTerms
import proofs.«148712_j56118042689984_2_alg».proof.Proof.Gen.KernelIdeal.Frame
import Idealize.ShloMosaic.Lib.StableHlo.Run

set_option maxRecDepth 16384

noncomputable section

namespace Cert.KernelIdeal.Entry

open Idealize.ShloMosaic Idealize.ShloMosaic.TcCoe Idealize.SL.Sem Idealize.ShloMosaic.StableHlo
open Cert.KernelIdeal Cert.KernelIdeal.Gen Cert.KernelIdeal.HostTerms

variable (m : (ℓ : Loc nD τ sig) → Buf (Elt Ideal) ℓ)

set_option maxHeartbeats 8000000 in
/-- The gathered features, as the region finds them. -/
theorem V_feats (c : Dev nD) : (V m c (Pipeline.arrRef spec0 (0 : Fin cfg0.W)) : S1600000x128.Idx → EReal)
    = feats (m ((c : Thread nD τ).loc main_arg0)) (m ((c : Thread nD τ).loc main_arg2)) (m ((c : Thread nD τ).loc main_arg3)) := by
  show StableHlo.after hostOps0 (fun b => m (c, b)) (Proc.devRef .tc main_v32) = _
  after_results
  rfl

set_option maxHeartbeats 8000000 in
/-- The column of source-side factors, as the region finds it. -/
theorem V_factor (c : Dev nD) : (V m c (Pipeline.arrRef spec0 (2 : Fin cfg0.W)) : S1600000x1.Idx → EReal)
    = factor (m ((c : Thread nD τ).loc main_arg2)) (m ((c : Thread nD τ).loc main_arg3)) := by
  show StableHlo.after hostOps0 (fun b => m (c, b)) (Proc.devRef .tc main_v15) = _
  after_results
  rfl

set_option maxHeartbeats 8000000 in
/-- The bias row, as the region finds it. -/
theorem V_bias (c : Dev nD) : (V m c (Pipeline.arrRef spec0 (4 : Fin cfg0.W)) : S1x64.Idx → EReal) = bias (m ((c : Thread nD τ).loc main_arg5)) := by
  show StableHlo.after hostOps0 (fun b => m (c, b)) (Proc.devRef .tc main_v33) = _
  after_results
  rfl

set_option maxHeartbeats 8000000 in
/-- The table of node factors, as the region finds it (the lines after the region read it again). -/
theorem V_norm (c : Dev nD) : (V m c main_v7 : S100000.Idx → EReal) = norm (m ((c : Thread nD τ).loc main_arg3)) := by
  show StableHlo.after hostOps0 (fun b => m (c, b)) (Proc.devRef .tc main_v7) = _
  after_results
  rfl

/-- The edge features are an argument: the region finds them as launched. -/
theorem V_efeat (c : Dev nD) : (V m c (Pipeline.arrRef spec0 (1 : Fin cfg0.W)) : S1600000x128.Idx → EReal)
    = m ((c : Thread nD τ).loc main_arg1) := V_main_arg1 m c

/-- The weights are an argument: the region finds them as launched. -/
theorem V_weight (c : Dev nD) : (V m c (Pipeline.arrRef spec0 (3 : Fin cfg0.W)) : S128x64.Idx → EReal)
    = m ((c : Thread nD τ).loc main_arg4) := V_main_arg4 m c

end Cert.KernelIdeal.Entry

end
-- ==== Proof.KResult.lean ====
/-
  The kernel program's result as one function of the six argument arrays: per destination node, the node's factor
  times the sum, over the edges that land on it, of the edge's message.
-/
import proofs.«148712_j56118042689984_2_alg».proof.Proof.KHostTerms
import proofs.«148712_j56118042689984_2_alg».proof.Proof.KMessage

noncomputable section

namespace Cert.KernelIdeal.HostTerms

open Idealize.ShloMosaic Cert.KernelIdeal Cert.KernelIdeal.Gen Cert.KernelIdeal.Message

/-- The message array of the argument arrays. -/
def messages (x0 : S100000x1x64.Idx → EReal) (x1 : S1600000x128.Idx → EReal) (x2 x3 : S1600000.Idx → BitVec 32)
    (x4 : S128x64.Idx → EReal) (x5 : S64.Idx → EReal) : S1600000x64.Idx → EReal :=
  Msg (feats x0 x2 x3) x1 (factor x2 x3) x4 (bias x5)

/-- The program's result of the argument arrays. -/
def result (x0 : S100000x1x64.Idx → EReal) (x1 : S1600000x128.Idx → EReal) (x2 x3 : S1600000.Idx → BitVec 32)
    (x4 : S128x64.Idx → EReal) (x5 : S64.Idx → EReal) : S100000x1x64.Idx → EReal :=
  out (norm x3) x3 (messages x0 x1 x2 x3 x4 x5)

end Cert.KernelIdeal.HostTerms

end
-- ==== Proof.KRun.lean ====
/-
  The kernel program's run, with its result named. The region leaves the message array at `Msg` of the arrays it
  found; the lines after it scatter-add the messages onto their destination nodes and scale each node's sum by the
  node's factor. So the program ends with its result buffer at `result` of the argument arrays, which it leaves
  unchanged.
-/
import proofs.«148712_j56118042689984_2_alg».proof.Proof.KArray
import proofs.«148712_j56118042689984_2_alg».proof.Proof.KHostV
import proofs.«148712_j56118042689984_2_alg».proof.Proof.KResult

set_option maxRecDepth 16384

noncomputable section

namespace Cert.KernelIdeal.Run

open Idealize.ShloMosaic Idealize.ShloMosaic.TcCoe Idealize.SL.Sem Idealize.ShloMosaic.StableHlo
open Cert.KernelIdeal Cert.KernelIdeal.Gen Cert.KernelIdeal.HostTerms Cert.KernelIdeal.Message
open Cert.KernelIdeal.Messages Cert.KernelIdeal.Entry
open Idealize.ShloMosaic.Pipeline (Dat Cfg Window)

variable (m : (ℓ : Loc nD τ sig) → Buf (Elt Ideal) ℓ) (ρ : Dev nD → PrngReg)

/-- The message array after the region, of the argument arrays: `Msg` of the five arrays the region found, each the
    named host term of the arguments. -/
theorem messages_eq (c : Dev nD) : (dats m 0 c).arrAt 5 cfg0.N
    = messages (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) :=
  (final m c).trans
    (congr (congr (congr (congr (congrArg Msg (V_feats m c)) (V_efeat m c)) (V_factor m c)) (V_weight m c)) (V_bias m c))

set_option maxHeartbeats 2000000 in
/-- The lines after the region, from ANY contents `W` of the buffers: the result buffer ends at `out` of the factor
    table, the destination words and the message array as `W` has them. -/
theorem tail_gen (W : Valuation τ sig (Elt Ideal)) :
    (StableHlo.after hostOps1 W (Proc.devRef .tc main_v41) : S100000x1x64.Idx → EReal)
      = out (W (Proc.devRef .tc main_v7)) (W (Proc.devRef .tc main_arg3)) (W (Proc.devRef .tc main_v34)) := by
  after_results
  rfl

/-- What the lines after the region leave in the result buffer. -/
theorem tail_eq (c : Dev nD) :
    (Pipeline.afterTail₀ cfgs (dats m) 0 (V0 m) [hostOps1] c main_v41 : S100000x1x64.Idx → EReal)
      = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have hN : Pipeline.withArrays (cfgs 0).spec c (V0 m c) (fun w => (dats m 0 c).arrAt w (cfgs 0).N)
      (Proc.devRef .tc main_v7) = norm (m ((c : Thread nD τ).loc main_arg3)) :=
    (Pipeline.withArrays_of_ne _ c (V0 m c) _ main_v7 (by decide)).trans (V_norm m c)
  have hX : Pipeline.withArrays (cfgs 0).spec c (V0 m c) (fun w => (dats m 0 c).arrAt w (cfgs 0).N)
      (Proc.devRef .tc main_arg3) = m ((c : Thread nD τ).loc main_arg3) :=
    (Pipeline.withArrays_of_ne _ c (V0 m c) _ main_arg3 (by decide)).trans (V_main_arg3 m c)
  have hM : Pipeline.withArrays (cfgs 0).spec c (V0 m c) (fun w => (dats m 0 c).arrAt w (cfgs 0).N)
      (Proc.devRef .tc main_v34) = messages (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) :=
    (Pipeline.withArrays_arr spec0 launch0.win.arr_inj c _ _ 5).trans (messages_eq m c)
  unfold Pipeline.afterTail₀
  show StableHlo.after hostOps1 _ (Proc.devRef .tc main_v41) = _
  refine (tail_gen _).trans ?_
  exact congr (congr (congrArg out hN) hX) hM

/-- THE RUN, with the result named: every weakly fair execution of the program terminates, nothing faulting, with the
    result buffer at `result` of the argument arrays and the argument arrays unchanged. -/
theorem run : θ_run defs (onTc (τ := τ) (main (F := Ideal))) ⟨m, fun _ => 0, ρ⟩ (fun r => ∀ c : Dev nD,
      r.2.mem ((c.tc : Thread nD τ).loc main_v41)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v41 (Pipeline.mem_restRefs_of main_v41 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c))⟩)
    (run_main m ρ)

end Cert.KernelIdeal.Run

end
-- ==== Proof.Row.lean ====
/-
  The row a gather reads. A gather along the node axis of a table of 100000 rows takes its start index from a
  32-bit word, reads it as a signed integer and clamps it into the table: the row read is
  `min (max v 0) 99999`. A word whose signed reading already is a node number is its own row.
-/
import Idealize.ShloMosaic.Lib.ValueIdx

namespace Cert.Edges

/-- A 32-bit word read as a signed integer and clamped into the node range `[0, 99999]`. -/
def row (v : BitVec 32) : Fin 100000 := ⟨min v.toInt.toNat 99999, by omega⟩

theorem row_val (v : BitVec 32) : (row v).val = min v.toInt.toNat 99999 := rfl

/-- A word whose signed reading is the node number `n` clamps to `n`. -/
theorem row_of_toInt {v : BitVec 32} {n : Fin 100000} (h : v.toInt = (n.val : Int)) : row v = n := by
  apply Fin.ext
  have hn := n.isLt
  rw [row_val, h]
  simp only [Int.toNat_natCast]
  omega

end Cert.Edges
-- ==== Proof.Spec.lean ====
/-
  The quantities both programs compute, index by index, over the extended reals.

  An edge `e` has a destination node and a source node, each named by a 32-bit word. Before a word is used as a row
  of a node table it is wrapped (`v < 0 ↦ v + 100000`) and clamped into the table (`Cert.Edges.row`). The edge's
  input is the destination node's 64 features followed by the source node's 64 features (`feat`), to which the edge's
  own 128 features are added; the linear layer maps that to 64 output features (`lin`):
      lin e d = (∑ k < 128, (feat k + ef[e, k]) · W[k, d]) + b[d].
  Both programs then scale by the normalisation factors of the two end nodes and add up, per destination node, over
  the edges whose destination word IS that node.
-/
import proofs.«148712_j56118042689984_2_alg».proof.Proof.Row
import Idealize.ShloMosaic.Lib.ValueIdx
import Idealize.ShloMosaic.PureOps.Ideal

noncomputable section

open scoped BigOperators

namespace Cert.Edges

open Idealize.ShloMosaic Idealize.ShloMosaic.ValueIdx

/-- A node word as jnp's indexing wraps it: a negative word has the number of nodes added. -/
def wrap (v : BitVec 32) : BitVec 32 := Scalar.select (IntOp.cmpi .slt v 0#32) (IntOp.addi v 100000#32) v

/-- Feature `k` of an edge's input: the destination row's feature `k` below 64, the source row's feature `k - 64`
    from 64 on. -/
def feat (nf : (⟨3, ![100000, 1, 64]⟩ : Shape).Idx → EReal) (rd rs : Fin 100000) (k : Fin 128) : EReal :=
  if h : k.val < 64 then nf (ix3 rd (0 : Fin 1) (⟨k.val, h⟩ : Fin 64))
  else nf (ix3 rs (0 : Fin 1) (⟨k.val - 64, by have := k.isLt; omega⟩ : Fin 64))

/-- The linear layer on edge `e`'s input, at output feature `d`. -/
def lin (nf : (⟨3, ![100000, 1, 64]⟩ : Shape).Idx → EReal) (ef : (⟨2, ![1600000, 128]⟩ : Shape).Idx → EReal)
    (W : (⟨2, ![128, 64]⟩ : Shape).Idx → EReal) (b : (⟨1, ![64]⟩ : Shape).Idx → EReal)
    (rd rs : Fin 100000) (e : Fin 1600000) (d : Fin 64) : EReal :=
  (∑ k : Fin 128, (feat nf rd rs k + ef (ix2 e k)) * W (ix2 k d)) + b (ix1 d)

end Cert.Edges

end
-- ==== Proof.Wrap.lean ====
/-
  Wrapping a node word. jnp's indexing wraps a negative index around the table: a word `v` becomes
  "if v < 0 then v + 100000 else v", the comparison signed. A word whose signed reading is a node number is not
  negative, so wrapping leaves it alone, and the row it names in the node table is that node.
-/
import proofs.«148712_j56118042689984_2_alg».proof.Proof.Spec
import Idealize.ShloMosaic.Lib.ValueIdx

namespace Cert.Edges

open Idealize.ShloMosaic Idealize.ShloMosaic.ValueIdx

/-- For a word whose signed reading is a node number (so it is not negative), the selection
"if v < 0 then v + 100000 else v" is v. -/
theorem select_node (v : BitVec 32) (n : Fin 100000) (h : v.toInt = (n.val : Int)) :
    Scalar.select (IntOp.cmpi .slt v 0#32) (IntOp.addi v 100000#32) v = v := by
  have hs : v.slt 0#32 = false := by
    unfold BitVec.slt
    rw [h]
    have h0 : (0#32 : BitVec 32).toInt = 0 := by decide
    rw [h0]
    exact decide_eq_false (by omega)
  have hc : IntOp.cmpi .slt v 0#32 = 0#1 := by
    show BitVec.ofBool (v.slt 0#32) = 0#1
    rw [hs]
    rfl
  rw [hc, select_zero]

/-- The wrapped word of a node number is the word itself. -/
theorem wrap_of_node (v : BitVec 32) (n : Fin 100000) (h : v.toInt = (n.val : Int)) : wrap v = v :=
  select_node v n h

/-- The row named by the wrapped word of a node number is that node. -/
theorem row_wrap (v : BitVec 32) (n : Fin 100000) (h : v.toInt = (n.val : Int)) : row (wrap v) = n := by
  rw [wrap_of_node v n h]
  exact row_of_toInt h

end Cert.Edges
-- ==== Proof.ScaleSum.lean ====
/-
  Two facts about finite sums in the extended reals.

  * A non-negative real scalar distributes over a finite sum of extended reals. (For an infinite or a negative
    scalar this fails: `⊤ + ⊥ = ⊥` but `(-1) * ⊤ + (-1) * ⊥ = ⊥` while `(-1) * ⊥ = ⊤`.)
  * A finite sum of non-negative reals, read in the extended reals, is again a non-negative real.
-/
import Idealize.ShloMosaic.PureOps.Ideal

namespace Cert.Edges

open scoped BigOperators

/-- A non-negative real scalar distributes over a finite sum of extended reals (it fails for an infinite or
negative scalar). -/
theorem scale_sum {ι : Type} (r : ℝ) (hr : 0 ≤ r) (A : Finset ι) (x a : ι → EReal) :
    (r : EReal) * (0 + ∑ e ∈ A, x e * a e) = 0 + ∑ e ∈ A, (a e * (r : EReal)) * x e := by
  classical
  rw [zero_add, zero_add]
  induction A using Finset.induction_on with
  | empty => rw [Finset.sum_empty, Finset.sum_empty, mul_zero]
  | insert e A he ih =>
    rw [Finset.sum_insert he, Finset.sum_insert he,
      EReal.left_distrib_of_nonneg_of_ne_top (EReal.coe_nonneg.2 hr) (EReal.coe_ne_top r), ih]
    congr 1
    rw [mul_comm (a e) (r : EReal), mul_assoc, mul_comm (a e) (x e)]

/-- A finite sum of non-negative reals, read in the extended reals, is a non-negative real. -/
theorem sum_coe_nonneg {ι : Type} (A : Finset ι) (f : ι → EReal)
    (hf : ∀ e, ∃ r : ℝ, 0 ≤ r ∧ f e = (r : EReal)) :
    ∃ r : ℝ, 0 ≤ r ∧ (0 : EReal) + ∑ e ∈ A, f e = (r : EReal) := by
  classical
  rw [zero_add]
  induction A using Finset.induction_on with
  | empty => exact ⟨0, le_refl 0, by rw [Finset.sum_empty, EReal.coe_zero]⟩
  | insert e A he ih =>
    obtain ⟨s, hs, hsum⟩ := ih
    obtain ⟨r, hr, hfe⟩ := hf e
    exact ⟨r + s, add_nonneg hr hs, by rw [Finset.sum_insert he, hsum, hfe, EReal.coe_add]⟩

end Cert.Edges
-- ==== Proof.RNorm.lean ====
/-
  The normalisation factor of a node is a non-negative real.

  The reference counts, for every node, the edges whose index word names it: a scatter of the constant one onto
  the zero array, so a finite sum of ones added to zero — a non-negative real, whichever edges land. The count is
  then raised to at least one (the maximum with the constant one) and taken to the power minus one half. A power
  of a non-negative real base with a real exponent is a non-negative real.
-/
import proofs.«148712_j56118042689984_2_alg».proof.Proof.ScaleSum
import proofs.«148712_j56118042689984_2_alg».proof.Proof.Gen.ReferenceIdeal.Read
import Idealize.ShloMosaic.PureOps.Ideal.Laws
import Idealize.ShloMosaic.Lib.IdealHost

namespace Cert.ReferenceIdeal.Edge

open Idealize.ShloMosaic Idealize.ShloMosaic.ValueIdx Cert.ReferenceIdeal Cert.ReferenceIdeal.Gen
  Cert.ReferenceIdeal.Read
open scoped BigOperators

/-- The f32 pattern `0xBF000000` is the real minus one half. -/
theorem ofBits_neg_half_f32 : Ideal.ofBits .f32 0xBF000000#32 = ((-(1 / 2 : ℝ) : ℝ) : EReal) := by
  simp [Ideal.ofBits, Ideal.ieee, -EReal.coe_mul, -EReal.coe_neg]; norm_num

/-- Every update of the counting scatter is the constant one. -/
theorem v0_one (j : S1600000.Idx) : val_main_v0 (F := Ideal) j = (1 : EReal) := by
  rw [val_main_v0_apply, val_main_cst_apply]
  exact Ideal.ofBits_one_f32

/-- The counting scatter's operand is the constant zero. -/
theorem v1_zero (i : S100000.Idx) : val_main_v1 (F := Ideal) i = (0 : EReal) := by
  rw [val_main_v1_apply, val_main_cst_0_apply]
  exact Ideal.ofBits_zero_f32

/-- The constant the count is raised to is one. -/
theorem v4_one (i : S100000.Idx) : val_main_v4 (F := Ideal) i = (1 : EReal) := by
  rw [val_main_v4_apply, val_main_cst_1_apply]
  exact Ideal.ofBits_one_f32

/-- The exponent is the real minus one half. -/
theorem v6_neg_half (i : S100000.Idx) : val_main_v6 (F := Ideal) i = ((-(1 / 2 : ℝ) : ℝ) : EReal) := by
  rw [val_main_v6_apply, val_main_cst_2_apply]
  exact ofBits_neg_half_f32

/-- The host's accumulating scatter read at an index: the operand's element plus the sum of the updates that land
    on it. -/
theorem hostScatterAdd_apply {s si u : Shape} {w : Nat} {φ : FTy} (d : ScatterDims s si u) (x : FVec Ideal s φ)
    (idx : IVec si w) (upd : FVec Ideal u φ) (i : s.Idx) :
    Host.scatterAdd d x idx upd i
      = x i + ∑ j ∈ Finset.univ.filter (fun j => d.resultIdx? j idx = some i), upd j := rfl

/-- The count of a node — zero plus a finite sum of ones — is a non-negative real. -/
theorem count_real (x3 : (⟨S1600000, .i32⟩ : BufTy).Contents (Elt Ideal)) (i : S100000.Idx) :
    ∃ r : ℝ, 0 ≤ r ∧ val_main_v3 (F := Ideal) x3 i = (r : EReal) := by
  unfold val_main_v3
  rw [hostScatterAdd_apply, v1_zero]
  exact Cert.Edges.sum_coe_nonneg _ (val_main_v0 (F := Ideal))
    (fun e => ⟨1, zero_le_one, by rw [v0_one]; exact EReal.coe_one.symm⟩)

/-- The maximum of a real and one, read in the extended reals. -/
theorem coe_max_one (c : ℝ) : max (c : EReal) 1 = ((max c 1 : ℝ) : EReal) := by
  rcases le_total c 1 with h | h
  · rw [max_eq_right h, max_eq_right (by exact_mod_cast h), EReal.coe_one]
  · rw [max_eq_left h, max_eq_left (by exact_mod_cast h)]

/-- The power of two reals, read in the extended reals, is the real power. -/
theorem pow_coe (a y : ℝ) : Ideal.pow (a : EReal) (y : EReal) = ((Real.rpow a y : ℝ) : EReal) := rfl

/-- THE NORMALISATION FACTOR of every node is a non-negative real. -/
theorem norm_real (x3 : (⟨S1600000, .i32⟩ : BufTy).Contents (Elt Ideal)) (i : S100000.Idx) :
    ∃ r : ℝ, 0 ≤ r ∧ val_main_v7 (F := Ideal) x3 i = (r : EReal) := by
  obtain ⟨c, hc, hv3⟩ := count_real x3 i
  refine ⟨Real.rpow (max c 1) (-(1 / 2 : ℝ)), Real.rpow_nonneg (le_max_of_le_left hc) _, ?_⟩
  rw [val_main_v7_apply, val_main_v5_apply, hv3, v4_one, v6_neg_half, Ideal.hostPowf_def, Ideal.maximumf_def,
    coe_max_one, pow_coe]

end Cert.ReferenceIdeal.Edge
-- ==== Proof.RGather.lean ====
/-
  A gather along the node axis, and a two-piece concatenation, read at one index (reference side).

  A gather whose start index has one component, naming the node axis, and whose slice is one whole row reads the
  table's row named by the edge's start index: the 32-bit word at `[e, 0]` of the start indices, read as a signed
  integer and clamped into the table's rows `[0, 99999]`. On the two remaining axes the result's coordinates are kept.
  A concatenation of two arrays of 64 columns along the last axis reads the first piece below column 64 and the
  second piece, 64 columns to the left, from column 64 on.
-/
import proofs.«148712_j56118042689984_2_alg».proof.Proof.Row
import proofs.«148712_j56118042689984_2_alg».proof.Proof.Gen.ReferenceIdeal
import Idealize.ShloMosaic.Lib.ValueIdx
import Idealize.ShloMosaic.Lib.Pipeline.Value

noncomputable section

namespace Cert.ReferenceIdeal.AtIndex

open Idealize.ShloMosaic Idealize.ShloMosaic.ValueIdx Cert.ReferenceIdeal Cert.ReferenceIdeal.Gen Cert.Edges

/-- The gather of whole rows of a table of 100000 rows (each one by 64) at edge `e`, position `(u, k)` of the row:
    that position of the row at the clamped start index of `e`. -/
theorem gather_rows_apply {α : Type} (x : S100000x1x64.Idx → α) (idx : IVec S1600000x1 32) (e : Fin 1600000) (u : Fin 1) (k : Fin 64) :
    Host.gather gather_S100000x1x64_S1600000x1_S1600000x1x64_12_0_n_n_0_1_1164 x idx (ix3 e u k)
      = x (ix3 (row (idx (ix2 e 0))) u k) := by
  unfold Host.gather
  congr 1
  funext a
  refine Fin.ext ?_
  match a with
  | ⟨0, _⟩ =>
    show gather_S100000x1x64_S1600000x1_S1600000x1x64_12_0_n_n_0_1_1164.start (ix3 e u k) idx 0
      + gather_S100000x1x64_S1600000x1_S1600000x1x64_12_0_n_n_0_1_1164.batchCoord (ix3 e u k) 0
      + gather_S100000x1x64_S1600000x1_S1600000x1x64_12_0_n_n_0_1_1164.offCoord (ix3 e u k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S100000x1x64_S1600000x1_S1600000x1x64_12_0_n_n_0_1_1164.startIndexMap from
      List.mem_singleton.mpr rfl)]
    have hsi : gather_S100000x1x64_S1600000x1_S1600000x1x64_12_0_n_n_0_1_1164.siIdx (ix3 e u k)
        ⟨List.idxOf (0 : Fin 3) gather_S100000x1x64_S1600000x1_S1600000x1x64_12_0_n_n_0_1_1164.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show gather_S100000x1x64_S1600000x1_S1600000x1x64_12_0_n_n_0_1_1164.start (ix3 e u k) idx 1
      + gather_S100000x1x64_S1600000x1_S1600000x1x64_12_0_n_n_0_1_1164.batchCoord (ix3 e u k) 1
      + gather_S100000x1x64_S1600000x1_S1600000x1x64_12_0_n_n_0_1_1164.offCoord (ix3 e u k) 1 = _
    rw [GatherDims.batchCoord_eq_zero _ _ _ List.not_mem_nil]
    have hst : gather_S100000x1x64_S1600000x1_S1600000x1x64_12_0_n_n_0_1_1164.start (ix3 e u k) idx 1 = 0 := by
      unfold GatherDims.start
      rw [dif_neg (show (1 : Fin 3) ∉ gather_S100000x1x64_S1600000x1_S1600000x1x64_12_0_n_n_0_1_1164.startIndexMap by decide)]
    have hmem : (1 : Fin 3) ∈ gather_S100000x1x64_S1600000x1_S1600000x1x64_12_0_n_n_0_1_1164.sKept := by decide
    rw [hst]
    unfold GatherDims.offCoord
    rw [dif_pos hmem]
    simp only [Nat.zero_add, Nat.add_zero]
    rfl
  | ⟨2, _⟩ =>
    show gather_S100000x1x64_S1600000x1_S1600000x1x64_12_0_n_n_0_1_1164.start (ix3 e u k) idx 2
      + gather_S100000x1x64_S1600000x1_S1600000x1x64_12_0_n_n_0_1_1164.batchCoord (ix3 e u k) 2
      + gather_S100000x1x64_S1600000x1_S1600000x1x64_12_0_n_n_0_1_1164.offCoord (ix3 e u k) 2 = _
    rw [GatherDims.batchCoord_eq_zero _ _ _ List.not_mem_nil]
    have hst : gather_S100000x1x64_S1600000x1_S1600000x1x64_12_0_n_n_0_1_1164.start (ix3 e u k) idx 2 = 0 := by
      unfold GatherDims.start
      rw [dif_neg (show (2 : Fin 3) ∉ gather_S100000x1x64_S1600000x1_S1600000x1x64_12_0_n_n_0_1_1164.startIndexMap by decide)]
    have hmem : (2 : Fin 3) ∈ gather_S100000x1x64_S1600000x1_S1600000x1x64_12_0_n_n_0_1_1164.sKept := by decide
    rw [hst]
    unfold GatherDims.offCoord
    rw [dif_pos hmem]
    simp only [Nat.zero_add, Nat.add_zero]
    rfl

/-- The gather of whole rows of a table of 100000 rows (each one by one) at edge `e`: the row at the clamped start
    index of `e`. -/
theorem gather_scal_apply {α : Type} (x : S100000x1x1.Idx → α) (idx : IVec S1600000x1 32) (e : Fin 1600000) (u v : Fin 1) :
    Host.gather gather_S100000x1x1_S1600000x1_S1600000x1x1_12_0_n_n_0_1_111 x idx (ix3 e u v)
      = x (ix3 (row (idx (ix2 e 0))) u v) := by
  unfold Host.gather
  congr 1
  funext a
  refine Fin.ext ?_
  match a with
  | ⟨0, _⟩ =>
    show gather_S100000x1x1_S1600000x1_S1600000x1x1_12_0_n_n_0_1_111.start (ix3 e u v) idx 0
      + gather_S100000x1x1_S1600000x1_S1600000x1x1_12_0_n_n_0_1_111.batchCoord (ix3 e u v) 0
      + gather_S100000x1x1_S1600000x1_S1600000x1x1_12_0_n_n_0_1_111.offCoord (ix3 e u v) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S100000x1x1_S1600000x1_S1600000x1x1_12_0_n_n_0_1_111.startIndexMap from
      List.mem_singleton.mpr rfl)]
    have hsi : gather_S100000x1x1_S1600000x1_S1600000x1x1_12_0_n_n_0_1_111.siIdx (ix3 e u v)
        ⟨List.idxOf (0 : Fin 3) gather_S100000x1x1_S1600000x1_S1600000x1x1_12_0_n_n_0_1_111.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show gather_S100000x1x1_S1600000x1_S1600000x1x1_12_0_n_n_0_1_111.start (ix3 e u v) idx 1
      + gather_S100000x1x1_S1600000x1_S1600000x1x1_12_0_n_n_0_1_111.batchCoord (ix3 e u v) 1
      + gather_S100000x1x1_S1600000x1_S1600000x1x1_12_0_n_n_0_1_111.offCoord (ix3 e u v) 1 = _
    rw [GatherDims.batchCoord_eq_zero _ _ _ List.not_mem_nil]
    have hst : gather_S100000x1x1_S1600000x1_S1600000x1x1_12_0_n_n_0_1_111.start (ix3 e u v) idx 1 = 0 := by
      unfold GatherDims.start
      rw [dif_neg (show (1 : Fin 3) ∉ gather_S100000x1x1_S1600000x1_S1600000x1x1_12_0_n_n_0_1_111.startIndexMap by decide)]
    have hmem : (1 : Fin 3) ∈ gather_S100000x1x1_S1600000x1_S1600000x1x1_12_0_n_n_0_1_111.sKept := by decide
    rw [hst]
    unfold GatherDims.offCoord
    rw [dif_pos hmem]
    simp only [Nat.zero_add, Nat.add_zero]
    rfl
  | ⟨2, _⟩ =>
    show gather_S100000x1x1_S1600000x1_S1600000x1x1_12_0_n_n_0_1_111.start (ix3 e u v) idx 2
      + gather_S100000x1x1_S1600000x1_S1600000x1x1_12_0_n_n_0_1_111.batchCoord (ix3 e u v) 2
      + gather_S100000x1x1_S1600000x1_S1600000x1x1_12_0_n_n_0_1_111.offCoord (ix3 e u v) 2 = _
    rw [GatherDims.batchCoord_eq_zero _ _ _ List.not_mem_nil]
    have hst : gather_S100000x1x1_S1600000x1_S1600000x1x1_12_0_n_n_0_1_111.start (ix3 e u v) idx 2 = 0 := by
      unfold GatherDims.start
      rw [dif_neg (show (2 : Fin 3) ∉ gather_S100000x1x1_S1600000x1_S1600000x1x1_12_0_n_n_0_1_111.startIndexMap by decide)]
    have hmem : (2 : Fin 3) ∈ gather_S100000x1x1_S1600000x1_S1600000x1x1_12_0_n_n_0_1_111.sKept := by decide
    rw [hst]
    unfold GatherDims.offCoord
    rw [dif_pos hmem]
    simp only [Nat.zero_add, Nat.add_zero]
    rfl

/-- Two arrays of 64 columns side by side along the last axis, read at `(e, u, k)`: the first below column 64, the
    second, 64 columns to the left, from column 64 on. -/
theorem concat_cols_apply {α : Type} (a b : S1600000x1x64.Idx → α)
    (h : Shape.Concatenates [S1600000x1x64, S1600000x1x64] S1600000x1x128 2) (e : Fin 1600000) (u : Fin 1)
    (k : Fin 128) :
    concatenate S1600000x1x128 2 [⟨S1600000x1x64, a⟩, ⟨S1600000x1x64, b⟩] h (ix3 e u k)
      = if hk : k.val < 64 then a (ix3 e u ⟨k.val, hk⟩)
        else b (ix3 e u ⟨k.val - 64, by have := k.isLt; omega⟩) := by
  by_cases hk : k.val < 64
  · rw [dif_pos hk]
    exact concatenate_pair_apply_left 2 a b h (ix3 e u k) rfl (ix3 e u ⟨k.val, hk⟩)
      (fun c => by match c with | ⟨0, _⟩ => rfl | ⟨1, _⟩ => rfl | ⟨2, _⟩ => rfl)
  · rw [dif_neg hk]
    have hlt : k.val - 64 < 64 := by have := k.isLt; omega
    exact concatenate_pair_apply_right 2 a b h (ix3 e u k) rfl rfl (ix3 e u ⟨k.val - 64, hlt⟩)
      (fun c hc => by
        match c, hc with
        | ⟨0, _⟩, _ => rfl
        | ⟨1, _⟩, _ => rfl
        | ⟨2, _⟩, hc => exact absurd rfl hc)
      (by show k.val - 64 + 64 = k.val; omega)

end Cert.ReferenceIdeal.AtIndex

end
-- ==== Proof.RScatter.lean ====
/-
  The accumulating scatter of the edge messages onto the nodes, read at one element, for the arrays with a
  unit middle axis.

  The operand is the node array `[100000, 1, 64]`, the scatter indices are the edge array `[1600000, 1]` of
  32-bit words, the updates are the edge array `[1600000, 1, 64]`. Update element `(e, u, k)` lands on operand
  element `(n, u, k)` exactly when the index word of edge `e`, read as a signed integer, is the node number
  `n` (an index outside `[0, 100000)` drops the update). So element `(n, 0, d)` of the result is the operand's
  element plus the sum of the updates `(e, 0, d)` over the edges `e` whose index word reads `n`.
-/
import proofs.«148712_j56118042689984_2_alg».proof.Proof.Row
import proofs.«148712_j56118042689984_2_alg».proof.Proof.Gen.ReferenceIdeal
import Idealize.ShloMosaic.Lib.ValueIdx
import Idealize.ShloMosaic.PureOps.Ideal

namespace Cert.ReferenceIdeal.AtIndex

open Idealize.ShloMosaic Idealize.ShloMosaic.ValueIdx Cert.ReferenceIdeal Cert.ReferenceIdeal.Gen
open scoped BigOperators

/-- An update element lands on the operand element `i` exactly when, on every axis, window start plus window
    coordinate is `i`'s coordinate (being a coordinate of `i`, that sum is then inside the operand). -/
theorem resultIdx?_eq_some_iff {s si u : Shape} (D : ScatterDims s si u) {w : Nat} (j : u.Idx) (idx : IVec si w)
    (i : s.Idx) : D.resultIdx? j idx = some i ↔ ∀ a, D.start j idx a + D.window j a = ((i a).val : Int) := by
  unfold ScatterDims.resultIdx?
  constructor
  · intro heq a
    by_cases h : ∀ a, 0 ≤ D.start j idx a + D.window j a ∧ D.start j idx a + D.window j a < s.size a
    · rw [dif_pos h] at heq
      have hi := Option.some.inj heq
      rw [← hi]
      exact (Int.toNat_of_nonneg (h a).1).symm
    · rw [dif_neg h] at heq
      exact absurd heq (by simp)
  · intro hall
    have h : ∀ a, 0 ≤ D.start j idx a + D.window j a ∧ D.start j idx a + D.window j a < s.size a := by
      intro a
      rw [hall a]
      exact ⟨Int.natCast_nonneg _, by exact_mod_cast (i a).isLt⟩
    rw [dif_pos h]
    congr 1
    funext a
    refine Fin.ext ?_
    show (D.start j idx a + D.window j a).toNat = (i a).val
    rw [hall a, Int.toNat_natCast]

/-- The scatter's dimension numbers: the operand's axis 0 is the scattered one, its axes 1 and 2 the window's. -/
abbrev dR : ScatterDims S100000x1x64 S1600000x1 S1600000x1x64 :=
  scatter_S100000x1x64_S1600000x1_S1600000x1x64_12_0_0_1

theorem mem0 : (0 : Fin S100000x1x64.rank) ∈ dR.scatterDimsToOperandDims := List.mem_singleton.mpr rfl
theorem nmem1 : (1 : Fin S100000x1x64.rank) ∉ dR.scatterDimsToOperandDims := by decide
theorem nmem2 : (2 : Fin S100000x1x64.rank) ∉ dR.scatterDimsToOperandDims := by decide

/-- The node axis is inserted: the window coordinate on it is `0`. -/
theorem window_zero (e : Fin 1600000) (u : Fin 1) (k : Fin 64) : dR.window (ix3 e u k) 0 = 0 := by
  unfold ScatterDims.window
  rw [dif_neg (by decide)]

/-- The unit axis is the window's first: the window coordinate on it is the update's unit coordinate. -/
theorem window_one (e : Fin 1600000) (u : Fin 1) (k : Fin 64) : dR.window (ix3 e u k) 1 = u.val := by
  unfold ScatterDims.window
  rw [dif_pos (by decide)]
  rfl

/-- The feature axis is the window's second: the window coordinate on it is the update's feature coordinate. -/
theorem window_two (e : Fin 1600000) (u : Fin 1) (k : Fin 64) : dR.window (ix3 e u k) 2 = k.val := by
  unfold ScatterDims.window
  rw [dif_pos (by decide)]
  rfl

/-- The unit axis is not scattered: the window starts at `0` on it. -/
theorem start_one (idx : IVec S1600000x1 32) (e : Fin 1600000) (u : Fin 1) (k : Fin 64) :
    dR.start (ix3 e u k) idx 1 = 0 := by
  unfold ScatterDims.start
  rw [dif_neg nmem1]

/-- The feature axis is not scattered: the window starts at `0` on it. -/
theorem start_two (idx : IVec S1600000x1 32) (e : Fin 1600000) (u : Fin 1) (k : Fin 64) :
    dR.start (ix3 e u k) idx 2 = 0 := by
  unfold ScatterDims.start
  rw [dif_neg nmem2]

/-- On the node axis the window starts at the edge's index word, read signed. -/
theorem start_zero (idx : IVec S1600000x1 32) (e : Fin 1600000) (u : Fin 1) (k : Fin 64) :
    dR.start (ix3 e u k) idx 0 = (idx (ix2 e 0)).toInt := by
  unfold ScatterDims.start
  rw [dif_pos mem0]
  have hsi : dR.siIdx (ix3 e u k) ⟨List.idxOf (0 : Fin S100000x1x64.rank) dR.scatterDimsToOperandDims,
      List.idxOf_lt_length_iff.2 mem0⟩ = ix2 e 0 := by
    funext b; refine Fin.ext ?_
    match b with
    | ⟨0, _⟩ => rfl
    | ⟨1, _⟩ => rfl
  rw [hsi]

/-- WHERE AN UPDATE LANDS: update element `(e, u, k)` lands on operand element `(n, 0, d)` exactly when the index
    word of edge `e` reads the node number `n` and `k = d` (the unit coordinate `u` is `0`). -/
theorem scatter_lands_iff (idx : IVec S1600000x1 32) (e : Fin 1600000) (u : Fin 1) (k : Fin 64) (n : Fin 100000)
    (d : Fin 64) :
    scatter_S100000x1x64_S1600000x1_S1600000x1x64_12_0_0_1.resultIdx? (ix3 e u k) idx = some (ix3 n 0 d)
      ↔ (idx (ix2 e 0)).toInt = (n.val : Int) ∧ k = d := by
  rw [resultIdx?_eq_some_iff]
  have hu := u.isLt
  constructor
  · intro h
    have h0 := h 0
    have h2 := h 2
    rw [start_zero, window_zero] at h0
    rw [start_two, window_two] at h2
    have h0' : (idx (ix2 e 0)).toInt + ((0 : Nat) : Int) = (n.val : Int) := h0
    have h2' : (0 : Int) + ((k.val : Nat) : Int) = (d.val : Int) := h2
    exact ⟨by omega, Fin.ext (by omega)⟩
  · rintro ⟨hn, rfl⟩ a
    match a with
    | ⟨0, _⟩ =>
      show dR.start (ix3 e u k) idx 0 + ((dR.window (ix3 e u k) 0 : Nat) : Int) = (n.val : Int)
      rw [start_zero, window_zero, hn]; omega
    | ⟨1, _⟩ =>
      show dR.start (ix3 e u k) idx 1 + ((dR.window (ix3 e u k) 1 : Nat) : Int) = ((0 : Nat) : Int)
      rw [start_one, window_one]; omega
    | ⟨2, _⟩ =>
      show dR.start (ix3 e u k) idx 2 + ((dR.window (ix3 e u k) 2 : Nat) : Int) = (k.val : Int)
      rw [start_two, window_two]; omega

/-- THE SCATTER READ AT `(n, 0, d)`: the operand's element plus the sum of the updates `(e, 0, d)` over the edges
    `e` whose index word reads the node number `n`. -/
theorem scatterAdd_apply (x : S100000x1x64.Idx → EReal) (idx : IVec S1600000x1 32)
    (upd : S1600000x1x64.Idx → EReal) (n : Fin 100000) (d : Fin 64) :
    Ideal.hostScatterAdd scatter_S100000x1x64_S1600000x1_S1600000x1x64_12_0_0_1 x idx upd (ix3 n 0 d)
      = x (ix3 n 0 d) + ∑ e ∈ Finset.univ.filter (fun e : Fin 1600000 => (idx (ix2 e 0)).toInt = (n.val : Int)),
          upd (ix3 e 0 d) := by
  unfold Ideal.hostScatterAdd
  refine congrArg (fun t => x (ix3 n 0 d) + t) ?_
  refine Finset.sum_nbij' (fun j : S1600000x1x64.Idx => (j 0 : Fin 1600000)) (fun e : Fin 1600000 => ix3 e 0 d)
    ?_ ?_ ?_ ?_ ?_
  · intro j hj
    obtain ⟨e, u, k, rfl⟩ : ∃ (e : Fin 1600000) (u : Fin 1) (k : Fin 64), j = ix3 e u k :=
      ⟨j 0, j 1, j 2, eq_ix3 j⟩
    have h := (scatter_lands_iff idx e u k n d).mp (Finset.mem_filter.mp hj).2
    exact Finset.mem_filter.mpr ⟨Finset.mem_univ _, h.1⟩
  · intro e he
    have h := (Finset.mem_filter.mp he).2
    exact Finset.mem_filter.mpr ⟨Finset.mem_univ _, (scatter_lands_iff idx e 0 d n d).mpr ⟨h, rfl⟩⟩
  · intro j hj
    obtain ⟨e, u, k, rfl⟩ : ∃ (e : Fin 1600000) (u : Fin 1) (k : Fin 64), j = ix3 e u k :=
      ⟨j 0, j 1, j 2, eq_ix3 j⟩
    have h := (scatter_lands_iff idx e u k n d).mp (Finset.mem_filter.mp hj).2
    show ix3 e 0 d = ix3 e u k
    rw [h.2, Subsingleton.elim u 0]
  · intro e _
    rfl
  · intro j hj
    obtain ⟨e, u, k, rfl⟩ : ∃ (e : Fin 1600000) (u : Fin 1) (k : Fin 64), j = ix3 e u k :=
      ⟨j 0, j 1, j 2, eq_ix3 j⟩
    have h := (scatter_lands_iff idx e u k n d).mp (Finset.mem_filter.mp hj).2
    show upd (ix3 e u k) = upd (ix3 e 0 d)
    rw [h.2, Subsingleton.elim u 0]

end Cert.ReferenceIdeal.AtIndex
-- ==== Proof.RValue.lean ====
/-
  The reference program read at one edge and at one node, over the extended reals.

  Stage by stage: each of the four index words the program forms is the input word wrapped (a negative word has the
  number of nodes added); a gather along the node axis then reads the row that the wrapped word, clamped into the
  table, names. So the concatenated feature rows are the edge's input features, the contraction with the weights plus
  the bias is the linear layer, and the product of the two gathered normalisation factors scales it. The final
  accumulating scatter adds, at node `n`, the scaled values of the edges whose destination word reads `n`.
-/
import proofs.«148712_j56118042689984_2_alg».proof.Proof.Spec
import proofs.«148712_j56118042689984_2_alg».proof.Proof.RGather
import proofs.«148712_j56118042689984_2_alg».proof.Proof.RScatter
import proofs.«148712_j56118042689984_2_alg».proof.Proof.Gen.ReferenceIdeal.Read
import Idealize.ShloMosaic.PureOps.Ideal.Laws

noncomputable section

open scoped BigOperators

namespace Cert.ReferenceIdeal.Edge

open Idealize.ShloMosaic Idealize.ShloMosaic.ValueIdx Cert.ReferenceIdeal Cert.ReferenceIdeal.Gen
  Cert.ReferenceIdeal.Read Cert.ReferenceIdeal.AtIndex Cert.Edges

variable (x0 : (⟨S100000x1x64, .f32⟩ : BufTy).Contents (Elt Ideal))
  (x1 : (⟨S1600000x128, .f32⟩ : BufTy).Contents (Elt Ideal))
  (x2 x3 : (⟨S1600000, .i32⟩ : BufTy).Contents (Elt Ideal))
  (x4 : (⟨S128x64, .f32⟩ : BufTy).Contents (Elt Ideal))
  (x5 : (⟨S64, .f32⟩ : BufTy).Contents (Elt Ideal))

/-! ## The four wrapped words -/

theorem v13_apply (e : Fin 1600000) : val_main_v13 (F := Ideal) x3 (ix1 e) = wrap (x3 (ix1 e)) := by
  unfold wrap
  rw [val_main_v13_apply, val_main_v10_apply, val_main_v12_apply, val_main_v9_apply, val_main_v11_apply,
    val_main_c_apply, val_main_c_3_apply]

theorem v20_apply (e : Fin 1600000) : val_main_v20 (F := Ideal) x2 (ix1 e) = wrap (x2 (ix1 e)) := by
  unfold wrap
  rw [val_main_v20_apply, val_main_v17_apply, val_main_v19_apply, val_main_v16_apply, val_main_v18_apply,
    val_main_c_4_apply, val_main_c_5_apply]

theorem v34_apply (e : Fin 1600000) : val_main_v34 (F := Ideal) x2 (ix1 e) = wrap (x2 (ix1 e)) := by
  unfold wrap
  rw [val_main_v34_apply, val_main_v31_apply, val_main_v33_apply, val_main_v30_apply, val_main_v32_apply,
    val_main_c_6_apply, val_main_c_7_apply]

theorem v41_apply (e : Fin 1600000) : val_main_v41 (F := Ideal) x3 (ix1 e) = wrap (x3 (ix1 e)) := by
  unfold wrap
  rw [val_main_v41_apply, val_main_v38_apply, val_main_v40_apply, val_main_v37_apply, val_main_v39_apply,
    val_main_c_8_apply, val_main_c_9_apply]

/-! ## The start indices: the wrapped words as a column -/

theorem v14_at (e : Fin 1600000) : val_main_v14 (F := Ideal) x3 (ix2 e 0) = wrap (x3 (ix1 e)) := by
  have hi : idx_main_v14 (ix2 e (0 : Fin 1)) = ix1 e := by
    funext a; match a with | ⟨0, _⟩ => rfl
  rw [val_main_v14_apply, hi, v13_apply]

theorem v21_at (e : Fin 1600000) : val_main_v21 (F := Ideal) x2 (ix2 e 0) = wrap (x2 (ix1 e)) := by
  have hi : idx_main_v21 (ix2 e (0 : Fin 1)) = ix1 e := by
    funext a; match a with | ⟨0, _⟩ => rfl
  rw [val_main_v21_apply, hi, v20_apply]

theorem v35_at (e : Fin 1600000) : val_main_v35 (F := Ideal) x2 (ix2 e 0) = wrap (x2 (ix1 e)) := by
  have hi : idx_main_v35 (ix2 e (0 : Fin 1)) = ix1 e := by
    funext a; match a with | ⟨0, _⟩ => rfl
  rw [val_main_v35_apply, hi, v34_apply]

theorem v42_at (e : Fin 1600000) : val_main_v42 (F := Ideal) x3 (ix2 e 0) = wrap (x3 (ix1 e)) := by
  have hi : idx_main_v42 (ix2 e (0 : Fin 1)) = ix1 e := by
    funext a; match a with | ⟨0, _⟩ => rfl
  rw [val_main_v42_apply, hi, v41_apply]

/-! ## The scale: the product of the two end nodes' normalisation factors -/

/-- The normalisation table as a column of one-by-one rows reads the flat table. -/
theorem v8_at (r : Fin 100000) :
    val_main_v8 (F := Ideal) x3 (ix3 r (0 : Fin 1) (0 : Fin 1)) = val_main_v7 (F := Ideal) x3 (ix1 r) := by
  have hi : idx_main_v8 (ix3 r (0 : Fin 1) (0 : Fin 1)) = ix1 r := by
    funext a; match a with | ⟨0, _⟩ => rfl
  rw [val_main_v8_apply, hi]

theorem v36_at (e : Fin 1600000) :
    val_main_v36 (F := Ideal) x2 x3 (ix3 e (0 : Fin 1) (0 : Fin 1))
      = val_main_v7 (F := Ideal) x3 (ix1 (row (wrap (x2 (ix1 e))))) := by
  unfold val_main_v36
  rw [gather_scal_apply, v35_at, v8_at]

theorem v43_at (e : Fin 1600000) :
    val_main_v43 (F := Ideal) x3 (ix3 e (0 : Fin 1) (0 : Fin 1))
      = val_main_v7 (F := Ideal) x3 (ix1 (row (wrap (x3 (ix1 e))))) := by
  unfold val_main_v43
  rw [gather_scal_apply, v42_at, v8_at]

theorem v44_at (e : Fin 1600000) :
    val_main_v44 (F := Ideal) x2 x3 (ix3 e (0 : Fin 1) (0 : Fin 1))
      = val_main_v7 (F := Ideal) x3 (ix1 (row (wrap (x2 (ix1 e)))))
        * val_main_v7 (F := Ideal) x3 (ix1 (row (wrap (x3 (ix1 e))))) := by
  unfold val_main_v44
  rw [mulf_apply, v36_at, v43_at]

theorem v45_at (e : Fin 1600000) (d : Fin 64) :
    val_main_v45 (F := Ideal) x2 x3 (ix3 e (0 : Fin 1) d)
      = val_main_v7 (F := Ideal) x3 (ix1 (row (wrap (x2 (ix1 e)))))
        * val_main_v7 (F := Ideal) x3 (ix1 (row (wrap (x3 (ix1 e))))) := by
  have hi : idx_main_v45 (ix3 e (0 : Fin 1) d) = ix3 e (0 : Fin 1) (0 : Fin 1) := by
    funext a; match a with | ⟨0, _⟩ => rfl | ⟨1, _⟩ => rfl | ⟨2, _⟩ => rfl
  rw [val_main_v45_apply, hi, v44_at]

/-! ## The linear layer on the edge's input -/

/-- The concatenated feature rows are the edge's input features. -/
theorem v23_at (e : Fin 1600000) (k : Fin 128) :
    val_main_v23 (F := Ideal) x0 x2 x3 (ix3 e (0 : Fin 1) k)
      = feat x0 (row (wrap (x3 (ix1 e)))) (row (wrap (x2 (ix1 e)))) k := by
  unfold val_main_v23 feat
  rw [concat_cols_apply]
  by_cases hk : k.val < 64
  · rw [dif_pos hk, dif_pos hk]
    unfold val_main_v15
    rw [gather_rows_apply, v14_at]
  · rw [dif_neg hk, dif_neg hk]
    unfold val_main_v22
    rw [gather_rows_apply, v21_at]

theorem v24_at (e : Fin 1600000) (k : Fin 128) :
    val_main_v24 (F := Ideal) x1 (ix3 e (0 : Fin 1) k) = x1 (ix2 e k) := by
  have hi : idx_main_v24 (ix3 e (0 : Fin 1) k) = ix2 e k := by
    funext a; match a with | ⟨0, _⟩ => rfl | ⟨1, _⟩ => rfl
  rw [val_main_v24_apply, hi]

theorem v25_at (e : Fin 1600000) (k : Fin 128) :
    val_main_v25 (F := Ideal) x0 x1 x2 x3 (ix3 e (0 : Fin 1) k)
      = feat x0 (row (wrap (x3 (ix1 e)))) (row (wrap (x2 (ix1 e)))) k + x1 (ix2 e k) := by
  unfold val_main_v25
  rw [addf_apply, v23_at, v24_at]

theorem v26_at (e : Fin 1600000) (d : Fin 64) :
    val_main_v26 (F := Ideal) x0 x1 x2 x3 x4 (ix3 e (0 : Fin 1) d)
      = ∑ k : Fin 128, (feat x0 (row (wrap (x3 (ix1 e)))) (row (wrap (x2 (ix1 e)))) k + x1 (ix2 e k)) * x4 (ix2 k d) := by
  rw [val_main_v26_apply]
  refine Finset.sum_congr rfl fun k _ => ?_
  have hl : lidx_main_v26 (ix3 e (0 : Fin 1) d) k = ix3 e (0 : Fin 1) k := by
    funext a; match a with | ⟨0, _⟩ => rfl | ⟨1, _⟩ => rfl | ⟨2, _⟩ => rfl
  have hr : ridx_main_v26 (ix3 e (0 : Fin 1) d) k = ix2 k d := by
    funext a; match a with | ⟨0, _⟩ => rfl | ⟨1, _⟩ => rfl
  rw [hl, hr, v25_at]

theorem v28_at (e : Fin 1600000) (d : Fin 64) :
    val_main_v28 (F := Ideal) x5 (ix3 e (0 : Fin 1) d) = x5 (ix1 d) := by
  have hi : idx_main_v27 (idx_main_v28 (ix3 e (0 : Fin 1) d)) = ix1 d := by
    funext a; match a with | ⟨0, _⟩ => rfl
  rw [val_main_v28_apply, val_main_v27_apply, hi]

theorem v29_at (e : Fin 1600000) (d : Fin 64) :
    val_main_v29 (F := Ideal) x0 x1 x2 x3 x4 x5 (ix3 e (0 : Fin 1) d)
      = lin x0 x1 x4 x5 (row (wrap (x3 (ix1 e)))) (row (wrap (x2 (ix1 e)))) e d := by
  unfold val_main_v29 lin
  rw [addf_apply, v26_at, v28_at]

/-! ## The value on one edge, and the result at one node -/

/-- THE VALUE ON EDGE `e`, output feature `d`: the two end nodes' normalisation factors times the linear layer. -/
theorem edge_apply (e : Fin 1600000) (d : Fin 64) :
    val_main_v46 (F := Ideal) x0 x1 x2 x3 x4 x5 (ix3 e (0 : Fin 1) d)
      = (val_main_v7 (F := Ideal) x3 (ix1 (row (wrap (x2 (ix1 e)))))
          * val_main_v7 (F := Ideal) x3 (ix1 (row (wrap (x3 (ix1 e))))))
        * lin x0 x1 x4 x5 (row (wrap (x3 (ix1 e)))) (row (wrap (x2 (ix1 e)))) e d := by
  unfold val_main_v46
  rw [mulf_apply, v45_at, v29_at]

/-- The accumulating scatter starts from the zero table. -/
theorem v47_at (i : S100000x1x64.Idx) : val_main_v47 (F := Ideal) i = (0 : EReal) := by
  rw [val_main_v47_apply, val_main_cst_10_apply]
  exact Ideal.ofBits_zero_f32

/-- Its index column is the destination words. -/
theorem v48_at (e : Fin 1600000) : val_main_v48 (F := Ideal) x3 (ix2 e (0 : Fin 1)) = x3 (ix1 e) := by
  have hi : idx_main_v48 (ix2 e (0 : Fin 1)) = ix1 e := by
    funext a; match a with | ⟨0, _⟩ => rfl
  rw [val_main_v48_apply, hi]

/-- THE RESULT AT NODE `n`, output feature `d`: the sum, over the edges whose destination word reads `n`, of the
    edge's value. -/
theorem result_apply (n : Fin 100000) (d : Fin 64) :
    val_main_v49 (F := Ideal) x0 x1 x2 x3 x4 x5 (ix3 n (0 : Fin 1) d)
      = 0 + ∑ e ∈ Finset.univ.filter (fun e : Fin 1600000 => (x3 (ix1 e)).toInt = (n.val : Int)),
          (val_main_v7 (F := Ideal) x3 (ix1 (row (wrap (x2 (ix1 e)))))
              * val_main_v7 (F := Ideal) x3 (ix1 (row (wrap (x3 (ix1 e))))))
            * lin x0 x1 x4 x5 (row (wrap (x3 (ix1 e)))) (row (wrap (x2 (ix1 e)))) e d := by
  have h : val_main_v49 (F := Ideal) x0 x1 x2 x3 x4 x5
      = Ideal.hostScatterAdd scatter_S100000x1x64_S1600000x1_S1600000x1x64_12_0_0_1 (val_main_v47 (F := Ideal))
          (val_main_v48 (F := Ideal) x3) (val_main_v46 (F := Ideal) x0 x1 x2 x3 x4 x5) := rfl
  rw [h, scatterAdd_apply, v47_at]
  simp only [v48_at, edge_apply]

end Cert.ReferenceIdeal.Edge

end
-- ==== Proof.KGather.lean ====
/-
  A gather along the node axis, and a two-piece concatenation, read at one index (kernel side).

  A gather whose start index has one component, naming the node axis, and whose slice is one whole row reads the
  table's row named by the edge's start index: the 32-bit word at `[e, 0]` of the start indices, read as a signed
  integer and clamped into the table's rows `[0, 99999]`. On the remaining axis the result's coordinate is kept.
  A concatenation of two arrays of 64 columns along the column axis reads the first piece below column 64 and the
  second piece, 64 columns to the left, from column 64 on.
-/
import proofs.«148712_j56118042689984_2_alg».proof.Proof.Row
import proofs.«148712_j56118042689984_2_alg».proof.Proof.Gen.KernelIdeal
import Idealize.ShloMosaic.Lib.ValueIdx
import Idealize.ShloMosaic.Lib.Pipeline.Value

noncomputable section

namespace Cert.KernelIdeal.AtIndex

open Idealize.ShloMosaic Idealize.ShloMosaic.ValueIdx Cert.KernelIdeal Cert.KernelIdeal.Gen Cert.Edges

/-- The gather of a flat table of 100000 entries at edge `e`: the entry at the clamped start index of `e`. -/
theorem gather_vec_apply {α : Type} (x : S100000.Idx → α) (idx : IVec S1600000x1 32) (e : Fin 1600000) :
    Host.gather gather_S100000_S1600000x1_S1600000_n_0_n_n_0_1_1 x idx (ix1 e) = x (ix1 (row (idx (ix2 e 0)))) := by
  unfold Host.gather
  congr 1
  funext a
  obtain rfl : a = 0 := Subsingleton.elim _ _
  refine Fin.ext ?_
  show gather_S100000_S1600000x1_S1600000_n_0_n_n_0_1_1.start (ix1 e) idx 0
    + gather_S100000_S1600000x1_S1600000_n_0_n_n_0_1_1.batchCoord (ix1 e) 0
    + gather_S100000_S1600000x1_S1600000_n_0_n_n_0_1_1.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S100000_S1600000x1_S1600000_n_0_n_n_0_1_1.startIndexMap from
    List.mem_singleton.mpr rfl)]
  have hsi : gather_S100000_S1600000x1_S1600000_n_0_n_n_0_1_1.siIdx (ix1 e)
      ⟨List.idxOf (0 : Fin 1) gather_S100000_S1600000x1_S1600000_n_0_n_n_0_1_1.startIndexMap,
        List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The gather of whole rows of a table of 100000 rows of 64 columns at edge `e`, column `k`: column `k` of the row
    at the clamped start index of `e`. -/
theorem gather_rows_apply {α : Type} (x : S100000x64.Idx → α) (idx : IVec S1600000x1 32) (e : Fin 1600000)
    (k : Fin 64) :
    Host.gather gather_S100000x64_S1600000x1_S1600000x64_1_0_n_n_0_1_164 x idx (ix2 e k)
      = x (ix2 (row (idx (ix2 e 0))) k) := by
  unfold Host.gather
  congr 1
  funext a
  refine Fin.ext ?_
  match a with
  | ⟨0, _⟩ =>
    show gather_S100000x64_S1600000x1_S1600000x64_1_0_n_n_0_1_164.start (ix2 e k) idx 0
      + gather_S100000x64_S1600000x1_S1600000x64_1_0_n_n_0_1_164.batchCoord (ix2 e k) 0
      + gather_S100000x64_S1600000x1_S1600000x64_1_0_n_n_0_1_164.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x64_S1600000x1_S1600000x64_1_0_n_n_0_1_164.startIndexMap from
      List.mem_singleton.mpr rfl)]
    have hsi : gather_S100000x64_S1600000x1_S1600000x64_1_0_n_n_0_1_164.siIdx (ix2 e k)
        ⟨List.idxOf (0 : Fin 2) gather_S100000x64_S1600000x1_S1600000x64_1_0_n_n_0_1_164.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show gather_S100000x64_S1600000x1_S1600000x64_1_0_n_n_0_1_164.start (ix2 e k) idx 1
      + gather_S100000x64_S1600000x1_S1600000x64_1_0_n_n_0_1_164.batchCoord (ix2 e k) 1
      + gather_S100000x64_S1600000x1_S1600000x64_1_0_n_n_0_1_164.offCoord (ix2 e k) 1 = _
    rw [GatherDims.batchCoord_eq_zero _ _ _ List.not_mem_nil]
    have hst : gather_S100000x64_S1600000x1_S1600000x64_1_0_n_n_0_1_164.start (ix2 e k) idx 1 = 0 := by
      unfold GatherDims.start
      rw [dif_neg (show (1 : Fin 2) ∉ gather_S100000x64_S1600000x1_S1600000x64_1_0_n_n_0_1_164.startIndexMap by decide)]
    have hmem : (1 : Fin 2) ∈ gather_S100000x64_S1600000x1_S1600000x64_1_0_n_n_0_1_164.sKept := by decide
    rw [hst]
    unfold GatherDims.offCoord
    rw [dif_pos hmem]
    simp only [Nat.zero_add, Nat.add_zero]
    rfl

/-- Two arrays of 64 columns side by side, read at row `e`, column `k`: the first below column 64, the second,
    64 columns to the left, from column 64 on. -/
theorem concat_cols_apply {α : Type} (a b : S1600000x64.Idx → α)
    (h : Shape.Concatenates [S1600000x64, S1600000x64] S1600000x128 1) (e : Fin 1600000) (k : Fin 128) :
    concatenate S1600000x128 1 [⟨S1600000x64, a⟩, ⟨S1600000x64, b⟩] h (ix2 e k)
      = if hk : k.val < 64 then a (ix2 e ⟨k.val, hk⟩)
        else b (ix2 e ⟨k.val - 64, by have := k.isLt; omega⟩) := by
  by_cases hk : k.val < 64
  · rw [dif_pos hk]
    exact concatenate_pair_apply_left 1 a b h (ix2 e k) rfl (ix2 e ⟨k.val, hk⟩)
      (fun c => by match c with | ⟨0, _⟩ => rfl | ⟨1, _⟩ => rfl)
  · rw [dif_neg hk]
    have hlt : k.val - 64 < 64 := by have := k.isLt; omega
    exact concatenate_pair_apply_right 1 a b h (ix2 e k) rfl rfl (ix2 e ⟨k.val - 64, hlt⟩)
      (fun c hc => by
        match c, hc with
        | ⟨0, _⟩, _ => rfl
        | ⟨1, _⟩, hc => exact absurd rfl hc)
      (by show k.val - 64 + 64 = k.val; omega)

end Cert.KernelIdeal.AtIndex

end
-- ==== Proof.KHostAt.lean ====
/-
  The kernel program's host operations read at one index.

  Each node word is wrapped (a negative word has the number of nodes added). The node features as a table of 100000
  rows of 64 columns are the input's rows; the gathered features of an edge are the destination row followed by the
  source row, each named by the wrapped word clamped into the table: exactly the edge's input features. The column of
  factors reads the normalisation table at the source row, the bias row reads the bias. So one edge's message is the
  linear layer on the edge's input times the source node's factor.
-/
import proofs.«148712_j56118042689984_2_alg».proof.Proof.Spec
import proofs.«148712_j56118042689984_2_alg».proof.Proof.KGather
import proofs.«148712_j56118042689984_2_alg».proof.Proof.KHostTerms
import proofs.«148712_j56118042689984_2_alg».proof.Proof.KMessage
import Idealize.ShloMosaic.Lib.ValueIdx
import Idealize.ShloMosaic.Lib.ValueLayout
import Idealize.ShloMosaic.Lib.Pipeline.Value

noncomputable section

open scoped BigOperators

namespace Cert.KernelIdeal.AtIndex

open Idealize.ShloMosaic Idealize.ShloMosaic.ValueIdx Cert.KernelIdeal Cert.KernelIdeal.Gen
  Cert.KernelIdeal.HostTerms Cert.KernelIdeal.Message Cert.Edges

/-! ## Reshapes and broadcasts at an index -/

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The edge words broadcast to a column read, at `(e, 0)`, the word of edge `e`. -/
theorem bcol_apply {α : Type} (y : S1600000.Idx → α) (e : Fin 1600000) :
    broadcastInDim S1600000x1 ![0] bcast_S1600000_S1600000x1_0 y (ix2 e (0 : Fin 1)) = y (ix1 e) :=
  broadcastInDim_apply _ bcast_S1600000_S1600000x1_0 y (ix2 e (0 : Fin 1)) (ix1 e) (fun a => match a with
    | ⟨0, _⟩ => by show e.val = if (1600000 : Nat) = 1 then 0 else e.val; rw [if_neg (by decide)])

/-- A scalar word broadcast over the edges reads that word everywhere. -/
theorem bword_apply (c : BitVec 32) (e : Fin 1600000) :
    broadcastInDim S1600000 ![] bcast_S_S1600000 (constantI S_ 32 c) (ix1 e) = c :=
  broadcastInDim_apply _ bcast_S_S1600000 (constantI S_ 32 c) (ix1 e) (fun a => a.elim0) (fun a => a.elim0)

/-! ## The host operations -/

/-- The wrapped word of edge `e`. -/
theorem wrapped_apply (x : S1600000.Idx → BitVec 32) (e : Fin 1600000) : wrapped x (ix1 e) = wrap (x (ix1 e)) := by
  unfold wrapped wrap
  show Scalar.select
      (IntOp.cmpi .slt (x (ix1 e)) (broadcastInDim S1600000 ![] bcast_S_S1600000 (constantI S_ 32 0#32) (ix1 e)))
      (IntOp.addi (x (ix1 e)) (broadcastInDim S1600000 ![] bcast_S_S1600000 (constantI S_ 32 100000#32) (ix1 e)))
      (x (ix1 e)) = _
  rw [bword_apply, bword_apply]

/-- The node table's row `r`, column `k`, is the input's `(r, 0, k)`. -/
theorem table_apply (x0 : S100000x1x64.Idx → EReal) (r : Fin 100000) (k : Fin 64) :
    table x0 (ix2 r k) = x0 (ix3 r (0 : Fin 1) k) := by
  unfold table
  rw [truncf_apply]
  exact shapeCast_a1b_ab_apply x0 shapeCasts_S100000x1x64_S100000x64 r k

variable (x0 : S100000x1x64.Idx → EReal) (x1 : S1600000x128.Idx → EReal) (x2 x3 : S1600000.Idx → BitVec 32)
  (x4 : S128x64.Idx → EReal) (x5 : S64.Idx → EReal)

/-- The gathered features of edge `e` are its input features. -/
theorem feats_apply (e : Fin 1600000) (k : Fin 128) :
    feats x0 x2 x3 (ix2 e k) = feat x0 (row (wrap (x3 (ix1 e)))) (row (wrap (x2 (ix1 e)))) k := by
  unfold feats feat
  rw [concat_cols_apply]
  by_cases hk : k.val < 64
  · rw [dif_pos hk, dif_pos hk, gather_rows_apply, bcol_apply, wrapped_apply, table_apply]
  · rw [dif_neg hk, dif_neg hk, gather_rows_apply, bcol_apply, wrapped_apply, table_apply]

/-- The factor of edge `e` is the normalisation factor of its source row. -/
theorem factor_apply (e : Fin 1600000) :
    factor x2 x3 (ix2 e (0 : Fin 1)) = norm x3 (ix1 (row (wrap (x2 (ix1 e))))) := by
  unfold factor
  rw [shapeCast_a_a1_apply, gather_vec_apply, bcol_apply, wrapped_apply]

/-- The bias row reads the bias. -/
theorem bias_apply (d : Fin 64) : bias x5 (ix2 (0 : Fin 1) d) = x5 (ix1 d) := by
  unfold bias
  exact shapeCast_a_1a_apply x5 shapeCasts_S64_S1x64 (0 : Fin 1) d

/-- ONE EDGE'S MESSAGE from the host's arrays: the linear layer on the edge's input times the source node's
    normalisation factor. -/
theorem msg_eq (e : Fin 1600000) (d : Fin 64) :
    msg (feats x0 x2 x3) x1 (factor x2 x3) x4 (bias x5) e d
      = lin x0 x1 x4 x5 (row (wrap (x3 (ix1 e)))) (row (wrap (x2 (ix1 e)))) e d
        * norm x3 (ix1 (row (wrap (x2 (ix1 e))))) := by
  have hs : (∑ k : Fin 128, (feats x0 x2 x3 (ix2 e k) + x1 (ix2 e k)) * x4 (ix2 k d))
      = ∑ k : Fin 128, (feat x0 (row (wrap (x3 (ix1 e)))) (row (wrap (x2 (ix1 e)))) k + x1 (ix2 e k)) * x4 (ix2 k d) :=
    Finset.sum_congr rfl fun k _ => by rw [feats_apply]
  unfold msg lin
  rw [factor_apply, bias_apply, hs]

end Cert.KernelIdeal.AtIndex

end
-- ==== Proof.KScatter.lean ====
/-
  The accumulating scatter of the edge messages onto the nodes, read at one element.

  The operand is the node array `[100000, 64]`, the scatter indices are the edge array `[1600000, 1]` of
  32-bit words, the updates are the edge array `[1600000, 64]`. Update element `(e, k)` lands on operand
  element `(n, k)` exactly when the index word of edge `e`, read as a signed integer, is the node number `n`
  (an index outside `[0, 100000)` drops the update). So element `(n, d)` of the result is the operand's
  element plus the sum of the updates `(e, d)` over the edges `e` whose index word reads `n`.
-/
import proofs.«148712_j56118042689984_2_alg».proof.Proof.Row
import proofs.«148712_j56118042689984_2_alg».proof.Proof.Gen.KernelIdeal
import Idealize.ShloMosaic.Lib.ValueIdx
import Idealize.ShloMosaic.PureOps.Ideal

namespace Cert.KernelIdeal.AtIndex

open Idealize.ShloMosaic Idealize.ShloMosaic.ValueIdx Cert.KernelIdeal Cert.KernelIdeal.Gen
open scoped BigOperators

/-- An update element lands on the operand element `i` exactly when, on every axis, window start plus window
    coordinate is `i`'s coordinate (being a coordinate of `i`, that sum is then inside the operand). -/
theorem resultIdx?_eq_some_iff {s si u : Shape} (D : ScatterDims s si u) {w : Nat} (j : u.Idx) (idx : IVec si w)
    (i : s.Idx) : D.resultIdx? j idx = some i ↔ ∀ a, D.start j idx a + D.window j a = ((i a).val : Int) := by
  unfold ScatterDims.resultIdx?
  constructor
  · intro heq a
    by_cases h : ∀ a, 0 ≤ D.start j idx a + D.window j a ∧ D.start j idx a + D.window j a < s.size a
    · rw [dif_pos h] at heq
      have hi := Option.some.inj heq
      rw [← hi]
      exact (Int.toNat_of_nonneg (h a).1).symm
    · rw [dif_neg h] at heq
      exact absurd heq (by simp)
  · intro hall
    have h : ∀ a, 0 ≤ D.start j idx a + D.window j a ∧ D.start j idx a + D.window j a < s.size a := by
      intro a
      rw [hall a]
      exact ⟨Int.natCast_nonneg _, by exact_mod_cast (i a).isLt⟩
    rw [dif_pos h]
    congr 1
    funext a
    refine Fin.ext ?_
    show (D.start j idx a + D.window j a).toNat = (i a).val
    rw [hall a, Int.toNat_natCast]

/-- The scatter's dimension numbers: the operand's axis 0 is the scattered one, its axis 1 the window's. -/
abbrev dK : ScatterDims S100000x64 S1600000x1 S1600000x64 := scatter_S100000x64_S1600000x1_S1600000x64_1_0_0_1

theorem mem0 : (0 : Fin S100000x64.rank) ∈ dK.scatterDimsToOperandDims := List.mem_singleton.mpr rfl
theorem nmem1 : (1 : Fin S100000x64.rank) ∉ dK.scatterDimsToOperandDims := by decide

/-- The node axis is inserted: the window coordinate on it is `0`. -/
theorem window_zero (e : Fin 1600000) (k : Fin 64) : dK.window (ix2 e k) 0 = 0 := by
  unfold ScatterDims.window
  rw [dif_neg (by decide)]

/-- The feature axis is the window's: the window coordinate on it is the update's feature coordinate. -/
theorem window_one (e : Fin 1600000) (k : Fin 64) : dK.window (ix2 e k) 1 = k.val := by
  unfold ScatterDims.window
  rw [dif_pos (by decide)]
  rfl

/-- The feature axis is not scattered: the window starts at `0` on it. -/
theorem start_one (idx : IVec S1600000x1 32) (e : Fin 1600000) (k : Fin 64) : dK.start (ix2 e k) idx 1 = 0 := by
  unfold ScatterDims.start
  rw [dif_neg nmem1]

/-- On the node axis the window starts at the edge's index word, read signed. -/
theorem start_zero (idx : IVec S1600000x1 32) (e : Fin 1600000) (k : Fin 64) :
    dK.start (ix2 e k) idx 0 = (idx (ix2 e 0)).toInt := by
  unfold ScatterDims.start
  rw [dif_pos mem0]
  have hsi : dK.siIdx (ix2 e k) ⟨List.idxOf (0 : Fin S100000x64.rank) dK.scatterDimsToOperandDims,
      List.idxOf_lt_length_iff.2 mem0⟩ = ix2 e 0 := by
    funext b; refine Fin.ext ?_
    match b with
    | ⟨0, _⟩ => rfl
    | ⟨1, _⟩ => rfl
  rw [hsi]

/-- WHERE AN UPDATE LANDS: update element `(e, k)` lands on operand element `(n, d)` exactly when the index word
    of edge `e` reads the node number `n` and `k = d`. -/
theorem scatter_lands_iff (idx : IVec S1600000x1 32) (e : Fin 1600000) (k : Fin 64) (n : Fin 100000) (d : Fin 64) :
    scatter_S100000x64_S1600000x1_S1600000x64_1_0_0_1.resultIdx? (ix2 e k) idx = some (ix2 n d)
      ↔ (idx (ix2 e 0)).toInt = (n.val : Int) ∧ k = d := by
  rw [resultIdx?_eq_some_iff]
  constructor
  · intro h
    have h0 := h 0
    have h1 := h 1
    rw [start_zero, window_zero] at h0
    rw [start_one, window_one] at h1
    have h0' : (idx (ix2 e 0)).toInt + ((0 : Nat) : Int) = (n.val : Int) := h0
    have h1' : (0 : Int) + ((k.val : Nat) : Int) = (d.val : Int) := h1
    exact ⟨by omega, Fin.ext (by omega)⟩
  · rintro ⟨hn, rfl⟩ a
    match a with
    | ⟨0, _⟩ =>
      show dK.start (ix2 e k) idx 0 + ((dK.window (ix2 e k) 0 : Nat) : Int) = (n.val : Int)
      rw [start_zero, window_zero, hn]; omega
    | ⟨1, _⟩ =>
      show dK.start (ix2 e k) idx 1 + ((dK.window (ix2 e k) 1 : Nat) : Int) = (k.val : Int)
      rw [start_one, window_one]; omega

/-- THE SCATTER READ AT `(n, d)`: the operand's element plus the sum of the updates `(e, d)` over the edges `e`
    whose index word reads the node number `n`. -/
theorem scatterAdd_apply (x : S100000x64.Idx → EReal) (idx : IVec S1600000x1 32) (upd : S1600000x64.Idx → EReal)
    (n : Fin 100000) (d : Fin 64) :
    Ideal.hostScatterAdd scatter_S100000x64_S1600000x1_S1600000x64_1_0_0_1 x idx upd (ix2 n d)
      = x (ix2 n d) + ∑ e ∈ Finset.univ.filter (fun e : Fin 1600000 => (idx (ix2 e 0)).toInt = (n.val : Int)),
          upd (ix2 e d) := by
  unfold Ideal.hostScatterAdd
  refine congrArg (fun t => x (ix2 n d) + t) ?_
  refine Finset.sum_nbij' (fun j : S1600000x64.Idx => (j 0 : Fin 1600000)) (fun e : Fin 1600000 => ix2 e d)
    ?_ ?_ ?_ ?_ ?_
  · intro j hj
    obtain ⟨e, k, rfl⟩ : ∃ (e : Fin 1600000) (k : Fin 64), j = ix2 e k := ⟨j 0, j 1, eq_ix2 j⟩
    have h := (scatter_lands_iff idx e k n d).mp (Finset.mem_filter.mp hj).2
    exact Finset.mem_filter.mpr ⟨Finset.mem_univ _, h.1⟩
  · intro e he
    have h := (Finset.mem_filter.mp he).2
    exact Finset.mem_filter.mpr ⟨Finset.mem_univ _, (scatter_lands_iff idx e d n d).mpr ⟨h, rfl⟩⟩
  · intro j hj
    obtain ⟨e, k, rfl⟩ : ∃ (e : Fin 1600000) (k : Fin 64), j = ix2 e k := ⟨j 0, j 1, eq_ix2 j⟩
    have h := (scatter_lands_iff idx e k n d).mp (Finset.mem_filter.mp hj).2
    show ix2 e d = ix2 e k
    rw [h.2]
  · intro e _
    rfl
  · intro j hj
    obtain ⟨e, k, rfl⟩ : ∃ (e : Fin 1600000) (k : Fin 64), j = ix2 e k := ⟨j 0, j 1, eq_ix2 j⟩
    have h := (scatter_lands_iff idx e k n d).mp (Finset.mem_filter.mp hj).2
    show upd (ix2 e k) = upd (ix2 e d)
    rw [h.2]

end Cert.KernelIdeal.AtIndex
-- ==== Proof.KTail.lean ====
/-
  What the program computes after the region, read at one element.

  The result `[100000, 1, 64]` is the reshape of a product `[100000, 64]`: the node's factor (the factor array
  broadcast along the feature axis) times the accumulating scatter of the message array onto the zero array. So
  element `(n, 0, d)` is the factor of node `n` times (zero plus) the sum of the messages `(e, d)` over the
  edges `e` whose destination word reads `n`.
-/
import proofs.«148712_j56118042689984_2_alg».proof.Proof.KHostTerms
import proofs.«148712_j56118042689984_2_alg».proof.Proof.KScatter
import Idealize.ShloMosaic.Lib.ValueIdx
import Idealize.ShloMosaic.Lib.Pipeline.Value
import Idealize.ShloMosaic.PureOps.Ideal.Laws

namespace Cert.KernelIdeal.AtIndex

open Idealize.ShloMosaic Idealize.ShloMosaic.ValueIdx Cert.KernelIdeal Cert.KernelIdeal.Gen
open scoped BigOperators

/-- At the extended reals the host's accumulating scatter is the exact one. -/
theorem hostScatterAdd_eq {s si u : Shape} {w : Nat} {φ : FTy} (D : ScatterDims s si u) (x : FVec Ideal s φ)
    (idx : IVec si w) (upd : FVec Ideal u φ) :
    Host.scatterAdd D x idx upd = Ideal.hostScatterAdd D x idx upd := rfl

/-- The zero array reads zero everywhere. -/
theorem zeros_apply (i : S100000x64.Idx) :
    broadcastInDim S100000x64 ![] bcast_S_S100000x64 (constant (F := Ideal) S_ FTy.f32 0#32) i = (0 : EReal) := by
  refine (broadcastInDim_apply _ bcast_S_S100000x64 _ i (fun a => a.elim0) (fun a => a.elim0)).trans ?_
  rw [constant_apply]
  exact Ideal.ofBits_zero_f32

/-- The word array as a column reads the word of its row. -/
theorem words_apply (x3 : S1600000.Idx → BitVec 32) (e : Fin 1600000) :
    broadcastInDim S1600000x1 ![0] bcast_S1600000_S1600000x1_0 x3 (ix2 e (0 : Fin 1)) = x3 (ix1 e) :=
  broadcastInDim_apply _ bcast_S1600000_S1600000x1_0 x3 (ix2 e (0 : Fin 1)) (ix1 e) (fun a => match a with
    | ⟨0, _⟩ => by show e.val = if (1600000 : Nat) = 1 then 0 else e.val; rw [if_neg (by decide)])

/-- The factor array broadcast along the feature axis reads the factor of its row. -/
theorem nrm_apply (nrm : S100000.Idx → EReal) (n : Fin 100000) (d : Fin 64) :
    broadcastInDim S100000x64 ![0, 1] bcast_S100000x1_S100000x64_0_1
        (broadcastInDim S100000x1 ![0] bcast_S100000_S100000x1_0 nrm) (ix2 n d) = nrm (ix1 n) := by
  refine (broadcastInDim_apply _ bcast_S100000x1_S100000x64_0_1 _ (ix2 n d) (ix2 n (0 : Fin 1)) (fun a => match a with
    | ⟨0, _⟩ => by show n.val = if (100000 : Nat) = 1 then 0 else n.val; rw [if_neg (by decide)]
    | ⟨1, _⟩ => by show (0 : Nat) = if (1 : Nat) = 1 then 0 else d.val; rw [if_pos rfl])).trans ?_
  exact broadcastInDim_apply _ bcast_S100000_S100000x1_0 nrm (ix2 n (0 : Fin 1)) (ix1 n) (fun a => match a with
    | ⟨0, _⟩ => by show n.val = if (100000 : Nat) = 1 then 0 else n.val; rw [if_neg (by decide)])

/-- THE RESULT READ AT `(n, 0, d)`: the factor of node `n` times the sum of the messages `(e, d)` over the edges
    `e` whose destination word reads `n`. -/
theorem out_apply (nrm : S100000.Idx → EReal) (x3 : S1600000.Idx → BitVec 32) (M : S1600000x64.Idx → EReal)
    (n : Fin 100000) (d : Fin 64) :
    HostTerms.out nrm x3 M (ix3 n (0 : Fin 1) d)
      = nrm (ix1 n) * (0 + ∑ e ∈ Finset.univ.filter (fun e : Fin 1600000 => (x3 (ix1 e)).toInt = (n.val : Int)),
          M (ix2 e d)) := by
  unfold HostTerms.out
  refine (shapeCast_apply _ shapeCasts_S100000x64_S100000x1x64 (ix3 n (0 : Fin 1) d) (ix2 n d) ?_).trans ?_
  · rw [Shape.rowMajor_val_two, Shape.rowMajor_val_three]
    show n.val * 64 + d.val = (n.val * 1 + 0) * 64 + d.val
    omega
  rw [mulf_apply, hostScatterAdd_eq, scatterAdd_apply, nrm_apply, zeros_apply]
  refine congrArg (fun t => nrm (ix1 n) * (0 + t)) ?_
  exact Finset.sum_congr (Finset.filter_congr fun e _ => by rw [words_apply]) (fun _ _ => rfl)

end Cert.KernelIdeal.AtIndex
-- ==== Proof.NormEq.lean ====
/-
  The factor table the kernel's program computes on the host is the reference's normalisation stage: both are the
  in-degree count (a scatter of ones onto zeros along the destination words), raised to at least one and taken to the
  power minus one half, spelt with the same operations over the same shapes and constants.
-/
import proofs.«148712_j56118042689984_2_alg».proof.Proof.KHostTerms
import proofs.«148712_j56118042689984_2_alg».proof.Proof.Gen.ReferenceIdeal.Read

namespace Cert.Edges

open Idealize.ShloMosaic

/-- The kernel program's factor table is the reference's normalisation stage. -/
theorem norm_eq (x3 : Cert.KernelIdeal.S1600000.Idx → BitVec 32) :
    Cert.KernelIdeal.HostTerms.norm x3 = Cert.ReferenceIdeal.Read.val_main_v7 (F := Idealize.ShloMosaic.Ideal) x3 := by
  unfold Cert.KernelIdeal.HostTerms.norm Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_cst Cert.ReferenceIdeal.Read.val_main_cst_0
    Cert.ReferenceIdeal.Read.val_main_cst_1 Cert.ReferenceIdeal.Read.val_main_cst_2
  rfl

end Cert.Edges
-- ==== Proof.Bridge.lean ====
/-
  The two programs compute one function of the argument arrays.

  At node `n` and output feature `d` the reference adds up, over the edges whose destination word reads `n`, the
  product of the two end nodes' normalisation factors with the linear layer on the edge's input. The kernel program
  adds up, over the same edges, the linear layer times the source node's factor, and multiplies the sum by the factor
  of `n`. An edge that lands on `n` has `n` as its destination row, so the reference's destination factor is the
  factor of `n` on every such edge; that factor is a non-negative real, and a non-negative real distributes over a
  finite sum of extended reals.
-/
import proofs.«148712_j56118042689984_2_alg».proof.Proof.Spec
import proofs.«148712_j56118042689984_2_alg».proof.Proof.Wrap
import proofs.«148712_j56118042689984_2_alg».proof.Proof.ScaleSum
import proofs.«148712_j56118042689984_2_alg».proof.Proof.RNorm
import proofs.«148712_j56118042689984_2_alg».proof.Proof.RValue
import proofs.«148712_j56118042689984_2_alg».proof.Proof.KHostAt
import proofs.«148712_j56118042689984_2_alg».proof.Proof.KTail
import proofs.«148712_j56118042689984_2_alg».proof.Proof.NormEq
import proofs.«148712_j56118042689984_2_alg».proof.Proof.KResult
import Idealize.ShloMosaic.Lib.ValueIdx

noncomputable section

open scoped BigOperators

namespace Cert.Edges

open Idealize.ShloMosaic Idealize.ShloMosaic.ValueIdx

variable (x0 : (⟨3, ![100000, 1, 64]⟩ : Shape).Idx → EReal) (x1 : (⟨2, ![1600000, 128]⟩ : Shape).Idx → EReal)
  (x2 x3 : (⟨1, ![1600000]⟩ : Shape).Idx → BitVec 32) (x4 : (⟨2, ![128, 64]⟩ : Shape).Idx → EReal)
  (x5 : (⟨1, ![64]⟩ : Shape).Idx → EReal)

/-- The kernel program's result at node `n`, output feature `d`: the factor of `n` times the sum, over the edges whose
    destination word reads `n`, of the linear layer on the edge's input times the source node's factor. -/
theorem kernel_apply (n : Fin 100000) (d : Fin 64) :
    Cert.KernelIdeal.HostTerms.result x0 x1 x2 x3 x4 x5 (ix3 n (0 : Fin 1) d)
      = Cert.ReferenceIdeal.Read.val_main_v7 (F := Ideal) x3 (ix1 n)
        * (0 + ∑ e ∈ Finset.univ.filter (fun e : Fin 1600000 => (x3 (ix1 e)).toInt = (n.val : Int)),
            lin x0 x1 x4 x5 (row (wrap (x3 (ix1 e)))) (row (wrap (x2 (ix1 e)))) e d
              * Cert.ReferenceIdeal.Read.val_main_v7 (F := Ideal) x3 (ix1 (row (wrap (x2 (ix1 e)))))) := by
  unfold Cert.KernelIdeal.HostTerms.result Cert.KernelIdeal.HostTerms.messages
  rw [Cert.KernelIdeal.AtIndex.out_apply]
  simp only [Cert.KernelIdeal.Message.Msg_apply, Cert.KernelIdeal.AtIndex.msg_eq, norm_eq]

/-- THE BRIDGE: the reference's result and the kernel program's result are the same array. -/
theorem bridge :
    Cert.ReferenceIdeal.Read.val_main_v49 (F := Idealize.ShloMosaic.Ideal) x0 x1 x2 x3 x4 x5
      = Cert.KernelIdeal.HostTerms.result x0 x1 x2 x3 x4 x5 := by
  funext i
  obtain ⟨n, u, d, rfl⟩ : ∃ (n : Fin 100000) (u : Fin 1) (d : Fin 64), i = ix3 n u d :=
    ⟨i 0, i 1, i 2, eq_ix3 i⟩
  obtain rfl : u = 0 := Subsingleton.elim _ _
  rw [Cert.ReferenceIdeal.Edge.result_apply, kernel_apply]
  obtain ⟨r, hr, hn⟩ := Cert.ReferenceIdeal.Edge.norm_real x3 (ix1 n)
  rw [hn, scale_sum r hr]
  refine congrArg (fun s => 0 + s) (Finset.sum_congr rfl fun e he => ?_)
  have he' : (x3 (ix1 e)).toInt = (n.val : Int) := (Finset.mem_filter.mp he).2
  rw [row_wrap _ n he', hn]

end Cert.Edges

end
-- ==== Proof.lean ====
/-
  A graph message-passing layer, 100000 nodes, 1600000 edges, 64 features per node. For node `n` let `deg n` be the
  number of edges whose destination word is `n` and `s n = (max (deg n) 1) ^ (-1/2)` its normalisation factor. For edge
  `e` with destination row `rd` and source row `rs` (the edge's two node words, wrapped and clamped into the node
  table) let
      lin e d = (∑ k < 128, (feat k + ef[e, k]) · W[k, d]) + b[d],
  `feat` the destination row's 64 features followed by the source row's 64 features.

  The reference scales every edge, `m e d = (s rs · s rd) · lin e d`, and adds up per destination node the `m e d` of the
  edges whose destination word is the node. The kernel's program scales only by the source factor on the edge,
  `lin e d · s rs` (the body of the region, 6400 edges per grid point), adds up per destination node, and multiplies
  the node's sum by `s n` afterwards. An edge that lands on node `n` has destination word `n`, so its destination row
  is `n` and its destination factor is `s n`; and `s n` is a non-negative REAL (a count, clamped, to a real power), so it
  distributes over the sum of extended reals although an infinite or negative scalar would not:
      s n · ∑ (lin e d · s rs) = ∑ (s rs · s n) · lin e d.
  That is the one law between the two programs; everything else is the same operations read at an index.

  The modules: Row, Spec (the quantities above), ScaleSum (the law), Wrap (a node word wraps and clamps to itself),
  KGather / RGather / KScatter / RScatter (a gather reads the row its word names; a scatter-add is the sum over the
  edges that land), KMessage (the region's body at an index), KArray (from the 250 blocks to the message array),
  KHostTerms / KHostV / KHostAt / KTail / KResult / KRun (the kernel program's host lines and its run), RValue / RNorm
  (the reference at an index; the factor is a non-negative real), NormEq and Bridge (the two results are one function).
-/
import proofs.«148712_j56118042689984_2_alg».proof.Defs
import proofs.«148712_j56118042689984_2_alg».proof.Proof.Gen.Kernel
import proofs.«148712_j56118042689984_2_alg».proof.Proof.Gen.Kernel.Skeleton
import proofs.«148712_j56118042689984_2_alg».proof.Proof.Gen.Kernel.Launch
import proofs.«148712_j56118042689984_2_alg».proof.Proof.Gen.Kernel.Points
import proofs.«148712_j56118042689984_2_alg».proof.Proof.Gen.Kernel.Frame
import proofs.«148712_j56118042689984_2_alg».proof.Proof.Gen.KernelIdeal
import proofs.«148712_j56118042689984_2_alg».proof.Proof.Gen.KernelIdeal.Skeleton
import proofs.«148712_j56118042689984_2_alg».proof.Proof.Gen.KernelIdeal.Launch
import proofs.«148712_j56118042689984_2_alg».proof.Proof.Gen.KernelIdeal.Points
import proofs.«148712_j56118042689984_2_alg».proof.Proof.Gen.KernelIdeal.Frame
import proofs.«148712_j56118042689984_2_alg».proof.Proof.Gen.ReferenceIdeal
import proofs.«148712_j56118042689984_2_alg».proof.Proof.Gen.Pre_finite_inputs
import proofs.«148712_j56118042689984_2_alg».proof.Proof.Gen.ReferenceIdeal.Run
import proofs.«148712_j56118042689984_2_alg».proof.Proof.Gen.ReferenceIdeal.Read
import proofs.«148712_j56118042689984_2_alg».proof.Proof.KRun
import proofs.«148712_j56118042689984_2_alg».proof.Proof.Bridge
import Idealize.ShloMosaic.Adequacy
import Idealize.ShloMosaic.Init

noncomputable section

namespace Cert.Proof

open Idealize.ShloMosaic Idealize.SL.Sem

/-- The word-level program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories that agree on the arguments both programs end with the same result: the kernel program's is
    `result` of its arguments, the reference's is its last stage of its own, and the two are one function. -/
theorem algebraic : Cert.algebraic_KernelIdeal_ReferenceIdeal := by
  intro m ρ m' ρ' _ hagree
  refine ⟨fun c => Cert.KernelIdeal.HostTerms.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Run.run m ρ, ?_⟩
  refine (θ_run Cert.ReferenceIdeal.defs _ _).mono (fun _ h c =>
      ⟨(h c).1.trans ((Cert.ReferenceIdeal.Read.val_main_v49_eq _ _ _ _ _ _).trans ?_), (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.Edges.bridge _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
